-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S5000x128 : Shape := ⟨2, ![5000, 128]⟩
abbrev S5000x16 : Shape := ⟨2, ![5000, 16]⟩
abbrev S3200000x16 : Shape := ⟨2, ![3200000, 16]⟩
abbrev S1x16 : Shape := ⟨2, ![1, 16]⟩
abbrev S100000x40 : Shape := ⟨2, ![100000, 40]⟩
abbrev S5000x1 : Shape := ⟨2, ![5000, 1]⟩
abbrev S5000x40 : Shape := ⟨2, ![5000, 40]⟩
abbrev S3200000x40 : Shape := ⟨2, ![3200000, 40]⟩
abbrev S1x40 : Shape := ⟨2, ![1, 40]⟩
abbrev S5000 : Shape := ⟨1, ![5000]⟩

abbrev nBuf : Space → Nat
  | .hbm => 78
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S3200000, .f32⟩
  | .hbm, ⟨41, _⟩ => ⟨S100000x16, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x16, .f32⟩
  | .hbm, ⟨51, _⟩ => ⟨S3200000x1, .f32⟩
  | .hbm, ⟨52, _⟩ => ⟨S3200000x16, .f32⟩
  | .hbm, ⟨53, _⟩ => ⟨S3200000x16, .f32⟩
  | .hbm, ⟨54, _⟩ => ⟨S_, .f32⟩
  | .hbm, ⟨55, _⟩ => ⟨S100000x16, .f32⟩
  | .hbm, ⟨56, _⟩ => ⟨S3200000x1, .i32⟩
  | .hbm, ⟨57, _⟩ => ⟨S100000x16, .f32⟩
  | .hbm, ⟨58, _⟩ => ⟨S1x16, .f32⟩
  | .hbm, ⟨59, _⟩ => ⟨S100000x40, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x40, .f32⟩
  | .hbm, ⟨69, _⟩ => ⟨S3200000x1, .f32⟩
  | .hbm, ⟨70, _⟩ => ⟨S3200000x40, .f32⟩
  | .hbm, ⟨71, _⟩ => ⟨S3200000x40, .f32⟩
  | .hbm, ⟨72, _⟩ => ⟨S_, .f32⟩
  | .hbm, ⟨73, _⟩ => ⟨S100000x40, .f32⟩
  | .hbm, ⟨74, _⟩ => ⟨S3200000x1, .i32⟩
  | .hbm, ⟨75, _⟩ => ⟨S100000x40, .f32⟩
  | .hbm, ⟨76, _⟩ => ⟨S1x40, .f32⟩
  | .hbm, ⟨77, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S5000x40, .f32⟩
  | .local _ .vmem, ⟨18, _⟩ => ⟨S5000x40, .f32⟩
  | .local _ .vmem, ⟨19, _⟩ => ⟨S5000x1, .f32⟩
  | .local _ .vmem, ⟨20, _⟩ => ⟨S5000x1, .f32⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x128_S128x16_S5000x16_1_0_0_1_n_n_wf : DotDims.WF S5000x128 S128x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x40_S5000x40_1_0_0_1_n_n_wf : DotDims.WF S5000x16 S16x40 S5000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x40.size a ≤ S16x40.size a
  hwx1_4 : ∀ i : grid1.Coords, EltTy.bits .f32 = 32 ∨ (Rect.block (s := S16x40) S16x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x40.size a ≤ S100000x40.size a
  hwx2_4 : ∀ i : grid2.Coords, EltTy.bits .f32 = 32 ∨ (Rect.block (s := S100000x40) S5000x40.size (cc2_transform_4 i) (hinb2_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S5000x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000x16 : Shape := ⟨2, ![100000, 16]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S100000x1 : Shape := ⟨2, ![100000, 1]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x40, .f32⟩
  | 5 => ⟨S40, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S_, .f32⟩
  | 12 => ⟨S3200000, .f32⟩
  | 13 => ⟨S_, .f32⟩
  | 14 => ⟨S100000, .f32⟩
  | 15 => ⟨S3200000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x16, .f32⟩
  | 49 => ⟨S3200000x1, .f32⟩
  | 50 => ⟨S3200000x16, .f32⟩
  | 51 => ⟨S3200000x16, .f32⟩
  | 52 => ⟨S_, .f32⟩
  | 53 => ⟨S100000x16, .f32⟩
  | 54 => ⟨S3200000x1, .i32⟩
  | 55 => ⟨S100000x16, .f32⟩
  | 56 => ⟨S100000, .f32⟩
  | 57 => ⟨S100000x1, .f32⟩
  | 58 => ⟨S100000x16, .f32⟩
  | 59 => ⟨S100000x16, .f32⟩
  | 60 => ⟨S100000x16, .f32⟩
  | 61 => ⟨S1x16, .f32⟩
  | 62 => ⟨S100000x16, .f32⟩
  | 63 => ⟨S100000x16, .f32⟩
  | 64 => ⟨S_, .f32⟩
  | 65 => ⟨S100000x16, .f32⟩
  | 66 => ⟨S100000x16, .f32⟩
  | 67 => ⟨S100000x40, .f32⟩
  | 68 => ⟨S_, .f32⟩
  | 69 => ⟨S3200000, .f32⟩
  | 70 => ⟨S_, .f32⟩
  | 71 => ⟨S100000, .f32⟩
  | 72 => ⟨S3200000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000, .f32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000, .f32⟩
  | 96 => ⟨S3200000, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000x40, .f32⟩
  | 106 => ⟨S3200000x1, .f32⟩
  | 107 => ⟨S3200000x40, .f32⟩
  | 108 => ⟨S3200000x40, .f32⟩
  | 109 => ⟨S_, .f32⟩
  | 110 => ⟨S100000x40, .f32⟩
  | 111 => ⟨S3200000x1, .i32⟩
  | 112 => ⟨S100000x40, .f32⟩
  | 113 => ⟨S100000, .f32⟩
  | 114 => ⟨S100000x1, .f32⟩
  | 115 => ⟨S100000x40, .f32⟩
  | 116 => ⟨S100000x40, .f32⟩
  | 117 => ⟨S100000x40, .f32⟩
  | 118 => ⟨S1x40, .f32⟩
  | 119 => ⟨S100000x40, .f32⟩
  | 120 => ⟨S100000x40, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x40, .f32⟩
  | _ => ⟨S100000x128, .f32⟩

abbrev hbmTy0_1 (i : Nat) : BufTy := match i % 128 with
  | 0 => ⟨S100000x40, .f32⟩
  | 1 => ⟨S100000x40, .f32⟩
  | 2 => ⟨S_, .f32⟩
  | 3 => ⟨S100000, .f32⟩
  | 4 => ⟨S100000x1, .f32⟩
  | 5 => ⟨S100000x1, .f32⟩
  | 6 => ⟨S100000x40, .f32⟩
  | 7 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  dot_S100000x128_S128x16_S100000x16_1_0_0_1_n_n_wf : DotDims.WF S100000x128 S128x16 S100000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.ResultRun.lean ====
/-
  The idealized kernel's run with its RESULT ARRAY NAMED.

  @main is three kernel regions among three stretches of host operations. The buffer contents at the
  six segment boundaries are a fold from the launch memory: a stretch applies its operations, a region
  leaves each of its arrays at what its write-backs fold to and every other buffer as it found it. At
  the return every unscoped buffer holds the last fold's contents; the frame keeps of that only the six
  argument arrays. Read at the result array as well, the same run says that the array returned holds
  the last fold's contents at that buffer, which the value lemmas then open region by region.
-/
import proofs.«127718_j28063316312557_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the
    last boundary's contents of its buffer and the six argument arrays as launched. -/
theorem run : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.ResultRun

end
-- ==== Proof.FeatureProduct.lean ====
/-
  Layer 1's dense product, block by block: the first kernel region computes x · W1.

  The region's grid has 20 points; point t stages rows 5000·t … 5000·t + 4999 of the [100000, 128]
  features and the whole [128, 16] weight, multiplies them into a zero accumulator, and writes rows
  5000·t … 5000·t + 4999 of the [100000, 16] result. Over the extended reals the rounding of both
  operands to bf16 is the identity and the product into zero is the plain sum over the 128 contraction
  indices, so block t of the result is block t of ONE whole-array function: entry (r, j) is
  Σ_k x(r, k) · W1(k, j). The 20 row blocks cover every row (row r lies in block r / 5000), hence the
  array the region leaves is that function of the arrays it found, whatever those are.
-/
import proofs.«127718_j28063316312557_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.FeatureProduct

open Cert.KernelIdeal Cert.KernelIdeal.Gen
open Idealize.ShloMosaic Idealize.ShloMosaic.TcCoe Idealize.SL.Sem
open Idealize.ShloMosaic.Pipeline (Dat Cfg Window)

theorem hz : (![0, 0] : Fin 2 → Nat) = fun _ => 0 := funext fun a => by fin_cases a <;> rfl

/-! ## The whole-array function -/

/-- Entry (i 0, k) of the features. -/
abbrev rowAt (i : S100000x16.Idx) (k : Fin 128) : S100000x128.Idx := fun a => match a with
  | ⟨0, _⟩ => ⟨(i 0).val, (i 0).isLt⟩
  | ⟨1, _⟩ => ⟨k.val, k.isLt⟩
/-- Entry (k, i 1) of the weight. -/
abbrev colAt (i : S100000x16.Idx) (k : Fin 128) : S128x16.Idx := fun a => match a with
  | ⟨0, _⟩ => ⟨k.val, k.isLt⟩
  | ⟨1, _⟩ => ⟨(i 1).val, (i 1).isLt⟩

/-- x · W: entry (r, j) is the sum over k of x(r, k) · W(k, j). -/
def xw (x : (⟨S100000x128, .f32⟩ : BufTy).Contents (Elt Ideal)) (w : (⟨S128x16, .f32⟩ : BufTy).Contents (Elt Ideal)) :
    (⟨S100000x16, .f32⟩ : BufTy).Contents (Elt Ideal) :=
  fun i => ∑ k : Fin 128, x (rowAt i k) * w (colAt i k)

/-! ## One block's product -/

abbrev brow (j : S5000x16.Idx) (k : Fin 128) : S5000x128.Idx := fun a => match a with
  | ⟨0, _⟩ => ⟨(j 0).val, (j 0).isLt⟩
  | ⟨1, _⟩ => ⟨k.val, k.isLt⟩
abbrev bcol (j : S5000x16.Idx) (k : Fin 128) : S128x16.Idx := fun a => match a with
  | ⟨0, _⟩ => ⟨k.val, k.isLt⟩
  | ⟨1, _⟩ => ⟨(j 1).val, (j 1).isLt⟩

theorem lhs_0 (j : S5000x16.Idx) (q : dot_S5000x128_S128x16_S5000x16_1_0_0_1_n_n.contr.Idx) : (dot_S5000x128_S128x16_S5000x16_1_0_0_1_n_n.lhsIdx j q 0).val = (j 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs_1 (j : S5000x16.Idx) (q : dot_S5000x128_S128x16_S5000x16_1_0_0_1_n_n.contr.Idx) : (dot_S5000x128_S128x16_S5000x16_1_0_0_1_n_n.lhsIdx j q 1).val = (q ⟨0, by decide⟩).val :=
  dot_S5000x128_S128x16_S5000x16_1_0_0_1_n_n.lhsIdx_val_of_single rfl j q
theorem rhs_0 (j : S5000x16.Idx) (q : dot_S5000x128_S128x16_S5000x16_1_0_0_1_n_n.contr.Idx) : (dot_S5000x128_S128x16_S5000x16_1_0_0_1_n_n.rhsIdx j q 0).val = (q ⟨0, by decide⟩).val :=
  dot_S5000x128_S128x16_S5000x16_1_0_0_1_n_n.rhsIdx_val_of_single rfl j q
theorem rhs_1 (j : S5000x16.Idx) (q : dot_S5000x128_S128x16_S5000x16_1_0_0_1_n_n.contr.Idx) : (dot_S5000x128_S128x16_S5000x16_1_0_0_1_n_n.rhsIdx j q 1).val = (j 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The body's stored value at an entry of the block: the sum over the contraction index of the
    products of the two staged blocks (no rounding over the extended reals, a zero accumulator). -/
theorem pay_apply (x0 : Vec Ideal S5000x128 .f32) (x1 : Vec Ideal S128x16 .f32) (j : S5000x16.Idx) :
    k0_pay1 (F := Ideal) x0 x1 j = ∑ k : Fin 128, x0 (brow j k) * x1 (bcol j k) := by
  unfold k0_pay1
  refine (Ideal.matmul_constant_zero_apply dot_S5000x128_S128x16_S5000x16_1_0_0_1_n_n none _ _ j).trans ?_
  rw [← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx j ((ValueIdx.contrEquiv1 dot_S5000x128_S128x16_S5000x16_1_0_0_1_n_n 128 rfl rfl).symm k) = brow j k := funext fun a => Fin.ext (by
    match a with
    | ⟨0, _⟩ => exact lhs_0 _ _
    | ⟨1, _⟩ => exact (lhs_1 _ _).trans hk)
  have er : dot_S5000x128_S128x16_S5000x16_1_0_0_1_n_n.rhsIdx j ((ValueIdx.contrEquiv1 dot_S5000x128_S128x16_S5000x16_1_0_0_1_n_n 128 rfl rfl).symm k) = bcol j k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

/-- The printed index maps over the 20 grid points: the features' and the result's row blocks are the
    point's number, every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · W1 of the arrays the region found. -/
theorem flushed_eq (c : Dev nD) (t : Fin cfg0.N) :
    (dat0 V c).flushed 2 t = ((cfg0.win 2).blk t).view.read (Elt Ideal) (xw (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x16) hz]
  obtain ⟨e0, e1, e2, e3, e4, e5⟩ := idx_facts t
  funext j
  show k0_pay1 (F := Ideal) (iblk0 V c 0 t) (iblk0 V c 1 t) j = xw (V c main_arg0) (V c main_arg2) (((cfg0.win 2).blk t).view.emb j)
  rw [pay_apply]
  unfold xw
  refine Finset.sum_congr rfl fun k _ => ?_
  have h0 : ((cfg0.win 0).blk t).view.emb (brow j k) = rowAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (bcol j k) = colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  have hA : iblk0 V c 0 t (brow j k) = V c main_arg0 (rowAt (((cfg0.win 2).blk t).view.emb j) k) := by
    show V c main_arg0 (((cfg0.win 0).blk t).view.emb (brow j k)) = _
    rw [h0]
  have hB : iblk0 V c 1 t (bcol j k) = V c main_arg2 (colAt (((cfg0.win 2).blk t).view.emb j) k) := by
    show V c main_arg2 (((cfg0.win 1).blk t).view.emb (bcol j k)) = _
    rw [h1]
  rw [hA, hB]

/-- An index of the result array is in point t's block iff each coordinate is in the block's range. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v28).slice (win0_2.rect t)).set ↔ _
  rw [View.set_slice_whole, Rect.mem_set_unit]
  exact Iff.rfl

/-- Row r lies in block r / 5000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  refine ⟨⟨(i 0).val / 5000, by show (i 0).val / 5000 < 20; omega⟩, flush0_2 _, ?_⟩
  rw [mem_blk]
  obtain ⟨e0, e1, e2, e3, e4, e5⟩ := idx_facts ⟨(i 0).val / 5000, by show (i 0).val / 5000 < 20; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 16 ≤ (i 1).val ∧ (i 1).val < win0_2.index _ (1 : Fin 2) * 16 + 16; rw [e5]; omega

/-- The array the region leaves: x · W1 of the arrays it found. -/
theorem final (c : Dev nD) : (dat0 V c).arrAt 2 cfg0.N = xw (V c main_arg0) (V c main_arg2) :=
  (dat0 V c).arrAt_eq_of_cover 2 (xw (V c main_arg0) (V c main_arg2)) (fun t _ => flushed_eq V c t) cover

end Cert.KernelIdeal.FeatureProduct

end
-- ==== Proof.HiddenLayer.lean ====
/-
  Layer 1's combine, relu and the second dense product, block by block: the second kernel region.

  Point t of the region's 20 stages rows 5000·t … 5000·t + 4999 of the first product h, of its
  aggregate over incoming edges a and of the self-loop column d, and the whole bias row b and the
  whole [16, 40] weight W. It forms z = (a + h · d) + b with d broadcast along a row and b down a
  column, takes max(z, 0), and multiplies by W into a zero accumulator. Over the extended reals, where
  rounding to bf16 is the identity, entry (r, q) of the block is Σ_k max(z(r, k), 0) · W(k, q): block
  t of ONE whole-array function of the five arrays. The row blocks cover every row, so the array the
  region leaves is that function of the arrays it found.
-/
import proofs.«127718_j28063316312557_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.HiddenLayer

open Cert.KernelIdeal Cert.KernelIdeal.Gen
open Idealize.ShloMosaic Idealize.ShloMosaic.TcCoe Idealize.SL.Sem
open Idealize.ShloMosaic.Pipeline (Dat Cfg Window)

theorem hz : (![0, 0] : Fin 2 → Nat) = fun _ => 0 := funext fun a => by fin_cases a <;> rfl

/-! ## The whole-array function -/

/-- Entry (i 0, k) of a [100000, 16] array. -/
abbrev rk (i : S100000x40.Idx) (k : Fin 16) : S100000x16.Idx := fun a => match a with
  | ⟨0, _⟩ => ⟨(i 0).val, (i 0).isLt⟩
  | ⟨1, _⟩ => ⟨k.val, k.isLt⟩
/-- Entry (i 0, 0) of the self-loop column. -/
abbrev r0 (i : S100000x40.Idx) : S100000x1.Idx := fun a => match a with
  | ⟨0, _⟩ => ⟨(i 0).val, (i 0).isLt⟩
  | ⟨1, _⟩ => ⟨0, Nat.one_pos⟩
/-- Entry (0, k) of the bias row. -/
abbrev zk (k : Fin 16) : S1x16.Idx := fun a => match a with
  | ⟨0, _⟩ => ⟨0, Nat.one_pos⟩
  | ⟨1, _⟩ => ⟨k.val, k.isLt⟩
/-- Entry (k, i 1) of the weight. -/
abbrev kc (i : S100000x40.Idx) (k : Fin 16) : S16x40.Idx := fun a => match a with
  | ⟨0, _⟩ => ⟨k.val, k.isLt⟩
  | ⟨1, _⟩ => ⟨(i 1).val, (i 1).isLt⟩

/-- relu((a + h · d) + b) · W: entry (r, q) is the sum over k of max(a(r,k) + h(r,k) · d(r) + b(k), 0) · W(k, q). -/
def hidden (h a : (⟨S100000x16, .f32⟩ : BufTy).Contents (Elt Ideal)) (d : (⟨S100000x1, .f32⟩ : BufTy).Contents (Elt Ideal)) (b : (⟨S1x16, .f32⟩ : BufTy).Contents (Elt Ideal)) (w : (⟨S16x40, .f32⟩ : BufTy).Contents (Elt Ideal)) :
    (⟨S100000x40, .f32⟩ : BufTy).Contents (Elt Ideal) :=
  fun i => ∑ k : Fin 16, max (a (rk i k) + h (rk i k) * d (r0 i) + b (zk k)) (Ideal.ofBits .f32 0x00000000#32) * w (kc i k)

/-! ## One block -/

abbrev brk (j : S5000x40.Idx) (k : Fin 16) : S5000x16.Idx := fun a => match a with
  | ⟨0, _⟩ => ⟨(j 0).val, (j 0).isLt⟩
  | ⟨1, _⟩ => ⟨k.val, k.isLt⟩
abbrev br0 (j : S5000x40.Idx) : S5000x1.Idx := fun a => match a with
  | ⟨0, _⟩ => ⟨(j 0).val, (j 0).isLt⟩
  | ⟨1, _⟩ => ⟨0, Nat.one_pos⟩
abbrev bkc (j : S5000x40.Idx) (k : Fin 16) : S16x40.Idx := fun a => match a with
  | ⟨0, _⟩ => ⟨k.val, k.isLt⟩
  | ⟨1, _⟩ => ⟨(j 1).val, (j 1).isLt⟩

theorem lhs_0 (j : S5000x40.Idx) (q : dot_S5000x16_S16x40_S5000x40_1_0_0_1_n_n.contr.Idx) : (dot_S5000x16_S16x40_S5000x40_1_0_0_1_n_n.lhsIdx j q 0).val = (j 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl
theorem lhs_1 (j : S5000x40.Idx) (q : dot_S5000x16_S16x40_S5000x40_1_0_0_1_n_n.contr.Idx) : (dot_S5000x16_S16x40_S5000x40_1_0_0_1_n_n.lhsIdx j q 1).val = (q ⟨0, by decide⟩).val :=
  dot_S5000x16_S16x40_S5000x40_1_0_0_1_n_n.lhsIdx_val_of_single rfl j q
theorem rhs_0 (j : S5000x40.Idx) (q : dot_S5000x16_S16x40_S5000x40_1_0_0_1_n_n.contr.Idx) : (dot_S5000x16_S16x40_S5000x40_1_0_0_1_n_n.rhsIdx j q 0).val = (q ⟨0, by decide⟩).val :=
  dot_S5000x16_S16x40_S5000x40_1_0_0_1_n_n.rhsIdx_val_of_single rfl j q
theorem rhs_1 (j : S5000x40.Idx) (q : dot_S5000x16_S16x40_S5000x40_1_0_0_1_n_n.contr.Idx) : (dot_S5000x16_S16x40_S5000x40_1_0_0_1_n_n.rhsIdx j q 1).val = (j 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-- A [5000, 1] column broadcast along the rows of a [5000, 16] block, read at an entry. -/
theorem col_apply (d0 : Vec Ideal S5000x1 .f32) (hb : S5000x1.Broadcasts S5000x16) (p : S5000x16.Idx) (q : S5000x1.Idx)
    (h0 : (q 0).val = (p 0).val) (h1 : (q 1).val = 0) : broadcastTo S5000x16 d0 hb p = d0 q :=
  broadcastTo_apply d0 hb p q (fun a => by
    match a with
    | ⟨0, _⟩ => exact h0
    | ⟨1, _⟩ => exact h1)

/-- A [1, 16] row broadcast down the columns of a [5000, 16] block, read at an entry. -/
theorem row_apply (b0 : Vec Ideal S1x16 .f32) (hb : S1x16.Broadcasts S5000x16) (p : S5000x16.Idx) (q : S1x16.Idx)
    (h0 : (q 0).val = 0) (h1 : (q 1).val = (p 1).val) : broadcastTo S5000x16 b0 hb p = b0 q :=
  broadcastTo_apply b0 hb p q (fun a => by
    match a with
    | ⟨0, _⟩ => exact h0
    | ⟨1, _⟩ => exact h1)

/-- The body's stored value at an entry of the block. -/
theorem pay_apply (a0 h0 : Vec Ideal S5000x16 .f32) (d0 : Vec Ideal S5000x1 .f32) (b0 : Vec Ideal S1x16 .f32) (w0 : Vec Ideal S16x40 .f32)
    (j : S5000x40.Idx) :
    k1_pay1 (F := Ideal) a0 h0 d0 b0 w0 j
      = ∑ k : Fin 16, max (a0 (brk j k) + h0 (brk j k) * d0 (br0 j) + b0 (zk k)) (Ideal.ofBits .f32 0x00000000#32) * w0 (bkc j k) := by
  unfold k1_pay1
  refine (Ideal.matmul_constant_zero_apply dot_S5000x16_S16x40_S5000x40_1_0_0_1_n_n none _ _ j).trans ?_
  rw [← Equiv.sum_comp (ValueIdx.contrEquiv1 dot_S5000x16_S16x40_S5000x40_1_0_0_1_n_n 16 rfl rfl).symm]
  refine Finset.sum_congr rfl fun k _ => ?_
  have hk := ValueIdx.contrEquiv1_symm_val dot_S5000x16_S16x40_S5000x40_1_0_0_1_n_n 16 rfl rfl k
  have el : dot_S5000x16_S16x40_S5000x40_1_0_0_1_n_n.lhsIdx j ((ValueIdx.contrEquiv1 dot_S5000x16_S16x40_S5000x40_1_0_0_1_n_n 16 rfl rfl).symm k) = brk j k := funext fun a => Fin.ext (by
    match a with
    | ⟨0, _⟩ => exact lhs_0 _ _
    | ⟨1, _⟩ => exact (lhs_1 _ _).trans hk)
  have er : dot_S5000x16_S16x40_S5000x40_1_0_0_1_n_n.rhsIdx j ((ValueIdx.contrEquiv1 dot_S5000x16_S16x40_S5000x40_1_0_0_1_n_n 16 rfl rfl).symm k) = bkc j k := funext fun a => Fin.ext (by
    match a with
    | ⟨0, _⟩ => exact (rhs_0 _ _).trans hk
    | ⟨1, _⟩ => exact rhs_1 _ _)
  rw [el, er]
  simp only [ValueIdx.truncf_apply, ValueIdx.maximumf_apply, ValueIdx.addf_apply, ValueIdx.mulf_apply, ValueIdx.broadcast_apply,
    shapeCast_self]
  rw [col_apply d0 _ (brk j k) (br0 j) rfl rfl, row_apply b0 _ (brk j k) (zk k) rfl rfl]
  rfl

/-! ## From the blocks to the array -/

variable (V : (c : Dev nD) → (b : Ref sig .tc) → Buf (Elt Ideal) ((c : Thread nD τ).loc b))

/-- The printed index maps over the 20 grid points: the row blocks of h, a, d and the result are the
    point's number, every other block index is 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the hidden-layer function of the arrays the region found. -/
theorem flushed_eq (c : Dev nD) (t : Fin cfg1.N) :
    (dat1 V c).flushed 5 t = ((cfg1.win 5).blk t).view.read (Elt Ideal)
      (hidden (V c main_v28) (V c main_v41) (V c main_v12) (V c main_v42) (V c main_arg4)) := by
  show (cfg1.win 5).cut (grid1.coords t) ((dat1 V c).after 5 t) = _
  rw [after1_5]
  unfold out1_5
  rw [View.canon_unit_zero hz]
  simp only [View.ld_unit_zero (S := S5000x16) hz, View.ld_unit_zero (S := S5000x1) hz, View.ld_unit_zero (S := S1x16) hz,
    View.ld_unit_zero (S := S16x40) hz]
  obtain ⟨e0, e1, e2, e3, e4, e5, e6, e7, e8, e9, e10, e11⟩ := idx_facts t
  funext j
  show k1_pay1 (F := Ideal) (iblk1 V c 1 t) (iblk1 V c 0 t) (iblk1 V c 2 t) (iblk1 V c 3 t) (iblk1 V c 4 t) j
    = hidden (V c main_v28) (V c main_v41) (V c main_v12) (V c main_v42) (V c main_arg4) (((cfg1.win 5).blk t).view.emb j)
  rw [pay_apply]
  unfold hidden
  refine Finset.sum_congr rfl fun k _ => ?_
  have i0 : ((cfg1.win 0).blk t).view.emb (brk j k) = rk (((cfg1.win 5).blk t).view.emb j) k := by
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 16 + 1 * k.val = k.val; omega
  have i1 : ((cfg1.win 1).blk t).view.emb (brk j k) = rk (((cfg1.win 5).blk t).view.emb j) k := by
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 16 + 1 * k.val = k.val; omega
  have i2 : ((cfg1.win 2).blk t).view.emb (br0 j) = r0 (((cfg1.win 5).blk t).view.emb j) := by
    funext a; apply Fin.ext
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 1 + 1 * 0 = 0; omega
  have i3 : ((cfg1.win 3).blk t).view.emb (zk k) = zk k := by
    funext a; apply Fin.ext
    match a with
    | ⟨0, _⟩ => show win1_3.index t (0 : Fin 2) * 1 + 1 * 0 = 0; omega
    | ⟨1, _⟩ => show win1_3.index t (1 : Fin 2) * 16 + 1 * k.val = k.val; omega
  have i4 : ((cfg1.win 4).blk t).view.emb (bkc j k) = kc (((cfg1.win 5).blk t).view.emb j) k := by
    funext a; apply Fin.ext
    match a with
    | ⟨0, _⟩ => show win1_4.index t (0 : Fin 2) * 16 + 1 * k.val = k.val; omega
    | ⟨1, _⟩ => show win1_4.index t (1 : Fin 2) * 40 + 1 * (j 1).val = win1_5.index t (1 : Fin 2) * 40 + 1 * (j 1).val; omega
  have hH : iblk1 V c 0 t (brk j k) = V c main_v28 (rk (((cfg1.win 5).blk t).view.emb j) k) := by
    show V c main_v28 (((cfg1.win 0).blk t).view.emb (brk j k)) = _
    rw [i0]
  have hA : iblk1 V c 1 t (brk j k) = V c main_v41 (rk (((cfg1.win 5).blk t).view.emb j) k) := by
    show V c main_v41 (((cfg1.win 1).blk t).view.emb (brk j k)) = _
    rw [i1]
  have hD : iblk1 V c 2 t (br0 j) = V c main_v12 (r0 (((cfg1.win 5).blk t).view.emb j)) := by
    show V c main_v12 (((cfg1.win 2).blk t).view.emb (br0 j)) = _
    rw [i2]
  have hB : iblk1 V c 3 t (zk k) = V c main_v42 (zk k) := by
    show V c main_v42 (((cfg1.win 3).blk t).view.emb (zk k)) = _
    rw [i3]
  have hW : iblk1 V c 4 t (bkc j k) = V c main_arg4 (kc (((cfg1.win 5).blk t).view.emb j) k) := by
    show V c main_arg4 (((cfg1.win 4).blk t).view.emb (bkc j k)) = _
    rw [i4]
  rw [hH, hA, hD, hB, hW]

/-- An index of the result array is in point t's block iff each coordinate is in the block's range. -/
theorem mem_blk (t : Fin cfg1.N) (i : S100000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v43).slice (win1_5.rect t)).set ↔ _
  rw [View.set_slice_whole, Rect.mem_set_unit]
  exact Iff.rfl

/-- Row r lies in block r / 5000. -/
theorem cover (i : S100000x40.Idx) : ∃ t : Fin cfg1.N, (cfg1.win 5).flush t = true ∧ i ∈ ((cfg1.win 5).blk t).view.set := by
  have hi0 : (i 0).val < 100000 := (i 0).isLt
  have hi1 : (i 1).val < 40 := (i 1).isLt
  refine ⟨⟨(i 0).val / 5000, by show (i 0).val / 5000 < 20; omega⟩, flush1_5 _, ?_⟩
  rw [mem_blk]
  obtain ⟨e0, e1, e2, e3, e4, e5, e6, e7, e8, e9, e10, e11⟩ := idx_facts ⟨(i 0).val / 5000, by show (i 0).val / 5000 < 20; omega⟩
  intro a
  match a with
  | ⟨0, _⟩ => show win1_5.index _ (0 : Fin 2) * 5000 ≤ (i 0).val ∧ (i 0).val < win1_5.index _ (0 : Fin 2) * 5000 + 5000; rw [e10]; show (i 0).val / 5000 * 5000 ≤ (i 0).val ∧ (i 0).val < (i 0).val / 5000 * 5000 + 5000; omega
  | ⟨1, _⟩ => show win1_5.index _ (1 : Fin 2) * 40 ≤ (i 1).val ∧ (i 1).val < win1_5.index _ (1 : Fin 2) * 40 + 40; rw [e11]; omega

/-- The array the region leaves: the hidden-layer function of the arrays it found. -/
theorem final (c : Dev nD) : (dat1 V c).arrAt 5 cfg1.N
    = hidden (V c main_v28) (V c main_v41) (V c main_v12) (V c main_v42) (V c main_arg4) :=
  (dat1 V c).arrAt_eq_of_cover 5 (hidden (V c main_v28) (V c main_v41) (V c main_v12) (V c main_v42) (V c main_arg4))
    (fun t _ => flushed_eq V c t) cover

end Cert.KernelIdeal.HiddenLayer

end
-- ==== Proof.LogSoftmaxRows.lean ====
/-
  Layer 2's combine and the row-wise log-softmax, block by block: the third kernel region.

  Point t of the region's 20 stages rows 5000·t … 5000·t + 4999 of the second product h, of its
  aggregate over incoming edges a and of the self-loop column d, and the whole bias row b. It forms
  z = (a + h · d) + b, the maximum M(r) of every row (a lane reduction by max started at the pattern
  of -∞), the shifted rows s = z - M, and stores s - log Σ_k exp s(r, k) (a lane reduction by + started
  at zero). Over the extended reals the lane maximum is the fold of max over the row's 40 entries from
  the value of the starting pattern and the lane sum is the sum over them, so entry (r, q) of the block
  depends only on row r of z: the block is block t of ONE whole-array function of the four arrays. The
  row blocks cover every row, so the array the region leaves is that function of the arrays it found.
-/
import proofs.«127718_j28063316312557_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.LogSoftmaxRows

open Cert.KernelIdeal Cert.KernelIdeal.Gen
open Idealize.ShloMosaic Idealize.ShloMosaic.TcCoe Idealize.SL.Sem
open Idealize.ShloMosaic.Pipeline (Dat Cfg Window)

theorem hz : (![0, 0] : Fin 2 → Nat) = fun _ => 0 := funext fun a => by fin_cases a <;> rfl

/-! ## The whole-array function -/

/-- Entry (r, k) of a [100000, 40] array. -/
abbrev ix (r : Fin 100000) (k : Fin 40) : S100000x40.Idx := fun a => match a with
  | ⟨0, _⟩ => ⟨r.val, r.isLt⟩
  | ⟨1, _⟩ => ⟨k.val, k.isLt⟩
/-- Entry (i 0, 0) of the self-loop column. -/
abbrev r0 (i : S100000x40.Idx) : S100000x1.Idx := fun a => match a with
  | ⟨0, _⟩ => ⟨(i 0).val, (i 0).isLt⟩
  | ⟨1, _⟩ => ⟨0, Nat.one_pos⟩
/-- Entry (0, i 1) of the bias row. -/
abbrev zq (i : S100000x40.Idx) : S1x40.Idx := fun a => match a with
  | ⟨0, _⟩ => ⟨0, Nat.one_pos⟩
  | ⟨1, _⟩ => ⟨(i 1).val, (i 1).isLt⟩

/-- The pre-activation (a + h · d) + b, d along the rows and b down the columns. -/
def pre (h a : (⟨S100000x40, .f32⟩ : BufTy).Contents (Elt Ideal)) (d : (⟨S100000x1, .f32⟩ : BufTy).Contents (Elt Ideal)) (b : (⟨S1x40, .f32⟩ : BufTy).Contents (Elt Ideal)) : S100000x40.Idx → EReal :=
  fun i => a i + h i * d (r0 i) + b (zq i)

/-- A row's maximum: the fold of max over its 40 entries from the value of the pattern of -∞. -/
def rmax (z : S100000x40.Idx → EReal) (r : Fin 100000) : EReal :=
  (Finset.univ : Finset (Fin 40)).fold max (Ideal.ofBits .f32 0xFF800000#32) (fun k => z (ix r k))

/-- Row-wise log-softmax: (z - M) - log Σ_k exp (z(r, k) - M(r)). -/
def lsm (z : S100000x40.Idx → EReal) : S100000x40.Idx → EReal :=
  fun i => (z i - rmax z ⟨(i 0).val, (i 0).isLt⟩) - Ideal.log (∑ k : Fin 40, Ideal.exp (z (ix ⟨(i 0).val, (i 0).isLt⟩ k) - rmax z ⟨(i 0).val, (i 0).isLt⟩))

/-- The region's function: the log-softmax of the rows of (a + h · d) + b. -/
def logits (h a : (⟨S100000x40, .f32⟩ : BufTy).Contents (Elt Ideal)) (d : (⟨S100000x1, .f32⟩ : BufTy).Contents (Elt Ideal)) (b : (⟨S1x40, .f32⟩ : BufTy).Contents (Elt Ideal)) : (⟨S100000x40, .f32⟩ : BufTy).Contents (Elt Ideal) :=
  lsm (pre h a d b)

/-! ## One block -/

abbrev bix (r : Fin 5000) (k : Fin 40) : S5000x40.Idx := fun a => match a with
  | ⟨0, _⟩ => ⟨r.val, r.isLt⟩
  | ⟨1, _⟩ => ⟨k.val, k.isLt⟩
abbrev bcol (p : S5000x40.Idx) : S5000x1.Idx := fun a => match a with
  | ⟨0, _⟩ => ⟨(p 0).val, (p 0).isLt⟩
  | ⟨1, _⟩ => ⟨0, Nat.one_pos⟩
abbrev brow (p : S5000x40.Idx) : S1x40.Idx := fun a => match a with
  | ⟨0, _⟩ => ⟨0, Nat.one_pos⟩
  | ⟨1, _⟩ => ⟨(p 1).val, (p 1).isLt⟩
abbrev b1 (r : Fin 5000) : S5000.Idx := fun a => match a with
  | ⟨0, _⟩ => ⟨r.val, r.isLt⟩

def bpre (a0 h0 : Vec Ideal S5000x40 .f32) (d0 : Vec Ideal S5000x1 .f32) (b0 : Vec Ideal S1x40 .f32) : S5000x40.Idx → EReal :=
  fun p => a0 p + h0 p * d0 (bcol p) + b0 (brow p)
def bmax (z : S5000x40.Idx → EReal) (r : Fin 5000) : EReal :=
  (Finset.univ : Finset (Fin 40)).fold max (Ideal.ofBits .f32 0xFF800000#32) (fun k => z (bix r k))
def blsm (z : S5000x40.Idx → EReal) : S5000x40.Idx → EReal :=
  fun p => (z p - bmax z ⟨(p 0).val, (p 0).isLt⟩) - Ideal.log (∑ k : Fin 40, Ideal.exp (z (bix ⟨(p 0).val, (p 0).isLt⟩ k) - bmax z ⟨(p 0).val, (p 0).isLt⟩))

/-- A [5000, 1] column broadcast along the rows of a [5000, 40] block, read at an entry. -/
theorem col_apply {α : Type} (d0 : S5000x1.Idx → α) (hb : S5000x1.Broadcasts S5000x40) (p : S5000x40.Idx) (q : S5000x1.Idx)
    (h0 : (q 0).val = (p 0).val) (h1 : (q 1).val = 0) : broadcastTo S5000x40 d0 hb p = d0 q :=
  broadcastTo_apply d0 hb p q (fun a => by
    match a with
    | ⟨0, _⟩ => exact h0
    | ⟨1, _⟩ => exact h1)

/-- A [1, 40] row broadcast down the columns of a [5000, 40] block, read at an entry. -/
theorem row_apply {α : Type} (b0 : S1x40.Idx → α) (hb : S1x40.Broadcasts S5000x40) (p : S5000x40.Idx) (q : S1x40.Idx)
    (h0 : (q 0).val = 0) (h1 : (q 1).val = (p 1).val) : broadcastTo S5000x40 b0 hb p = b0 q :=
  broadcastTo_apply b0 hb p q (fun a => by
    match a with
    | ⟨0, _⟩ => exact h0
    | ⟨1, _⟩ => exact h1)

/-- A [5000] vector cast to a [5000, 1] column reads, at (r, 0), the vector at r. -/
theorem cast_col {α : Type} (x : S5000.Idx → α) (h : S5000.ShapeCasts S5000x1) (p : S5000x1.Idx) (q : S5000.Idx)
    (hq : (q 0).val = (p 0).val) : shapeCast S5000x1 x h p = x q :=
  shapeCast_apply x h p q (by
    rw [Shape.rowMajor_val_two, Shape.rowMajor_val_one]
    show (q 0).val = (p 0).val * 1 + (p 1).val
    have h1 : (p 1).val < 1 := (p 1).isLt
    omega)

/-- The lane maximum of a block at a row: the fold of max over the row from the starting pattern's value. -/
theorem lane_max (z : FVec Ideal S5000x40 .f32) (h : S5000x40.Reduces [1] S5000) (hφ : FKind.Formats .f32)
    (hacc : (0xFF800000#32 : BitVec 32) = FKind.maximumf.neutral .f32 hφ) (r : Fin 5000) :
    multiReduction .maximumf [1] S5000 z 0xFF800000#32 h hφ hacc (b1 r) = bmax z r := by
  refine (Ideal.multiReduction_maximumf_single z 0xFF800000#32 h hφ hacc (b1 r)).trans ?_
  unfold bmax
  refine congrArg (Finset.fold max _ · Finset.univ) (funext fun k => ?_)
  exact congrArg z (funext fun a => Fin.ext (by match a with | ⟨0, _⟩ => rfl | ⟨1, _⟩ => rfl))

/-- The lane sum of a block at a row: the sum over the row. -/
theorem lane_sum (z : FVec Ideal S5000x40 .f32) (h : S5000x40.Reduces [1] S5000) (hφ : FKind.Formats .f32)
    (hacc : (0x00000000#32 : BitVec 32) = FKind.add.neutral .f32 hφ) (r : Fin 5000) :
    multiReduction .add [1] S5000 z 0x00000000#32 h hφ hacc (b1 r) = ∑ k : Fin 40, z (bix r k) := by
  refine (Ideal.multiReduction_add_single z 0x00000000#32 h hφ hacc (b1 r)).trans ?_
  refine Finset.sum_congr rfl fun k _ => ?_
  exact congrArg z (funext fun a => Fin.ext (by match a with | ⟨0, _⟩ => rfl | ⟨1, _⟩ => rfl))

/-- The body's pre-activation at an entry of the block. -/
theorem pre_apply (a0 h0 : Vec Ideal S5000x40 .f32) (d0 : Vec Ideal S5000x1 .f32) (b0 : Vec Ideal S1x40 .f32)
    (hc1 : S5000x40.ShapeCasts S5000x40) (hc2 : S5000x1.ShapeCasts S5000x1) (hc3 : S1x40.ShapeCasts S1x40)
    (hb1 : S5000x1.Broadcasts S5000x40) (hb2 : S1x40.Broadcasts S5000x40) (p : S5000x40.Idx) :
    addf (F := Ideal) (φ := .f32) (addf (F := Ideal) (φ := .f32) (shapeCast S5000x40 a0 hc1)
        (mulf (F := Ideal) (φ := .f32) (shapeCast S5000x40 h0 hc1) (broadcastTo S5000x40 (shapeCast S5000x1 d0 hc2) hb1)))
      (broadcastTo S5000x40 (shapeCast S1x40 b0 hc3) hb2) p = bpre a0 h0 d0 b0 p := by
  simp only [ValueIdx.addf_apply, ValueIdx.mulf_apply, shapeCast_self]
  rw [col_apply d0 hb1 p (bcol p) rfl rfl, row_apply b0 hb2 p (brow p) rfl rfl]
  rfl

theorem log_apply {s : Shape} {φ : FTy} (v : FVec Ideal s φ) (i : s.Idx) : log v i = Ideal.log (v i) := rfl
theorem exp_apply {s : Shape} {φ : FTy} (v : FVec Ideal s φ) (i : s.Idx) : exp v i = Ideal.exp (v i) := rfl

/-- The body after the pre-activation Z, at an entry: the row maximum broadcast back, the shift, the
    exponentials' lane sum, its logarithm broadcast back, the second shift. -/
theorem tail_apply (Z : FVec Ideal S5000x40 .f32) (hr : S5000x40.Reduces [1] S5000) (hφ : FKind.Formats .f32)
    (hm : (0xFF800000#32 : BitVec 32) = FKind.maximumf.neutral .f32 hφ) (hs : (0x00000000#32 : BitVec 32) = FKind.add.neutral .f32 hφ)
    (hc : S5000.ShapeCasts S5000x1) (hb : S5000x1.Broadcasts S5000x40) (j : S5000x40.Idx) :
    subf (F := Ideal) (φ := .f32) (subf (F := Ideal) (φ := .f32) Z (broadcastTo S5000x40 (shapeCast S5000x1 (multiReduction .maximumf [1] S5000 Z 0xFF800000#32 hr hφ hm) hc) hb))
      (broadcastTo S5000x40 (log (shapeCast S5000x1 (multiReduction .add [1] S5000
        (exp (subf (F := Ideal) (φ := .f32) Z (broadcastTo S5000x40 (shapeCast S5000x1 (multiReduction .maximumf [1] S5000 Z 0xFF800000#32 hr hφ hm) hc) hb))) 0x00000000#32 hr hφ hs) hc)) hb) j
    = blsm Z j := by
  have hM : ∀ p : S5000x40.Idx, (broadcastTo S5000x40 (shapeCast S5000x1 (multiReduction .maximumf [1] S5000 Z 0xFF800000#32 hr hφ hm) hc) hb) p = bmax Z ⟨(p 0).val, (p 0).isLt⟩ := fun p => by
    rw [col_apply _ hb p (bcol p) rfl rfl, cast_col _ hc (bcol p) (b1 ⟨(p 0).val, (p 0).isLt⟩) rfl]
    exact lane_max Z hr hφ hm _
  have hE : ∀ p : S5000x40.Idx, exp (subf (F := Ideal) (φ := .f32) Z (broadcastTo S5000x40 (shapeCast S5000x1 (multiReduction .maximumf [1] S5000 Z 0xFF800000#32 hr hφ hm) hc) hb)) p
      = Ideal.exp (Z p - bmax Z ⟨(p 0).val, (p 0).isLt⟩) := fun p => by
    rw [exp_apply, ValueIdx.subf_apply, hM]
  unfold blsm
  rw [ValueIdx.subf_apply, ValueIdx.subf_apply, hM, col_apply _ hb j (bcol j) rfl rfl, log_apply,
    cast_col _ hc (bcol j) (b1 ⟨(j 0).val, (j 0).isLt⟩) rfl, lane_sum _ hr hφ hs]
  simp only [hE]

/-- The body's stored value at an entry of the block: the log-softmax of the block's rows of the pre-activation. -/
theorem pay_apply (a0 h0 : Vec Ideal S5000x40 .f32) (d0 : Vec Ideal S5000x1 .f32) (b0 : Vec Ideal S1x40 .f32) (j : S5000x40.Idx) :
    k2_pay1 (F := Ideal) a0 h0 d0 b0 j = blsm (bpre a0 h0 d0 b0) j := by
  unfold k2_pay1
  rw [show addf (F := Ideal) (φ := .f32) (addf (F := Ideal) (φ := .f32) (shapeCast S5000x40 a0 shapeCasts_S5000x40_S5000x40)
        (mulf (F := Ideal) (φ := .f32) (shapeCast S5000x40 h0 shapeCasts_S5000x40_S5000x40)
          (broadcastTo S5000x40 (shapeCast S5000x1 d0 shapeCasts_S5000x1_S5000x1) broadcasts_S5000x1_S5000x40)))
        (broadcastTo S5000x40 (shapeCast S1x40 b0 shapeCasts_S1x40_S1x40) broadcasts_S1x40_S5000x40) = bpre a0 h0 d0 b0
      from funext fun p => pre_apply a0 h0 d0 b0 _ _ _ _ _ p]
  exact tail_apply (bpre a0 h0 d0 b0) _ _ _ _ _ _ j

/-- A block's log-softmax is the array's, read where the block sits: when every entry of the block's
    pre-activation is the array's at the entry's place, and a block row's entries sit in one array row. -/
theorem blsm_eq_lsm (zb : S5000x40.Idx → EReal) (za : S100000x40.Idx → EReal) (e : S5000x40.Idx → S100000x40.Idx)
    (hz : ∀ p, zb p = za (e p))
    (hrow : ∀ (p : S5000x40.Idx) (k : Fin 40), e (bix ⟨(p 0).val, (p 0).isLt⟩ k) = ix ⟨((e p) 0).val, ((e p) 0).isLt⟩ k)
    (j : S5000x40.Idx) : blsm zb j = lsm za (e j) := by
  unfold blsm lsm bmax rmax
  simp only [hz, hrow]

/-! ## From the blocks to the array -/

variable (V : (c : Dev nD) → (b : Ref sig .tc) → Buf (Elt Ideal) ((c : Thread nD τ).loc b))

/-- The printed index maps over the 20 grid points: the row blocks of h, a, d and the result are the
    point's number, every other block index is 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the log-softmax function of the arrays the region found. -/
theorem flushed_eq (c : Dev nD) (t : Fin cfg2.N) :
    (dat2 V c).flushed 4 t = ((cfg2.win 4).blk t).view.read (Elt Ideal)
      (logits (V c main_v43) (V c main_v56) (V c main_v12) (V c main_v57)) := by
  show (cfg2.win 4).cut (grid2.coords t) ((dat2 V c).after 4 t) = _
  rw [after2_4]
  unfold out2_4
  rw [View.canon_unit_zero hz]
  simp only [View.ld_unit_zero (S := S5000x40) hz, View.ld_unit_zero (S := S5000x1) hz, View.ld_unit_zero (S := S1x40) hz]
  obtain ⟨e0, e1, e2, e3, e4, e5, e6, e7, e8, e9⟩ := idx_facts t
  funext j
  show k2_pay1 (F := Ideal) (iblk2 V c 1 t) (iblk2 V c 0 t) (iblk2 V c 2 t) (iblk2 V c 3 t) j
    = logits (V c main_v43) (V c main_v56) (V c main_v12) (V c main_v57) (((cfg2.win 4).blk t).view.emb j)
  rw [pay_apply]
  -- every entry of the block's pre-activation is the array's pre-activation at the entry's place in the array
  have hpre : ∀ p : S5000x40.Idx, bpre (iblk2 V c 1 t) (iblk2 V c 0 t) (iblk2 V c 2 t) (iblk2 V c 3 t) p
      = pre (V c main_v43) (V c main_v56) (V c main_v12) (V c main_v57) (((cfg2.win 4).blk t).view.emb p) := fun p => by
    have i0 : ((cfg2.win 0).blk t).view.emb p = ((cfg2.win 4).blk t).view.emb p := by
      funext a; apply Fin.ext
      match a with
      | ⟨0, _⟩ => show win2_0.index t (0 : Fin 2) * 5000 + 1 * (p 0).val = win2_4.index t (0 : Fin 2) * 5000 + 1 * (p 0).val; omega
      | ⟨1, _⟩ => show win2_0.index t (1 : Fin 2) * 40 + 1 * (p 1).val = win2_4.index t (1 : Fin 2) * 40 + 1 * (p 1).val; omega
    have i1 : ((cfg2.win 1).blk t).view.emb p = ((cfg2.win 4).blk t).view.emb p := by
      funext a; apply Fin.ext
      match a with
      | ⟨0, _⟩ => show win2_1.index t (0 : Fin 2) * 5000 + 1 * (p 0).val = win2_4.index t (0 : Fin 2) * 5000 + 1 * (p 0).val; omega
      | ⟨1, _⟩ => show win2_1.index t (1 : Fin 2) * 40 + 1 * (p 1).val = win2_4.index t (1 : Fin 2) * 40 + 1 * (p 1).val; omega
    have i2 : ((cfg2.win 2).blk t).view.emb (bcol p) = r0 (((cfg2.win 4).blk t).view.emb p) := by
      funext a; apply Fin.ext
      match a with
      | ⟨0, _⟩ => show win2_2.index t (0 : Fin 2) * 5000 + 1 * (p 0).val = win2_4.index t (0 : Fin 2) * 5000 + 1 * (p 0).val; omega
      | ⟨1, _⟩ => show win2_2.index t (1 : Fin 2) * 1 + 1 * 0 = 0; omega
    have i3 : ((cfg2.win 3).blk t).view.emb (brow p) = zq (((cfg2.win 4).blk t).view.emb p) := by
      funext a; apply Fin.ext
      match a with
      | ⟨0, _⟩ => show win2_3.index t (0 : Fin 2) * 1 + 1 * 0 = 0; omega
      | ⟨1, _⟩ => show win2_3.index t (1 : Fin 2) * 40 + 1 * (p 1).val = win2_4.index t (1 : Fin 2) * 40 + 1 * (p 1).val; omega
    have hH : iblk2 V c 0 t p = V c main_v43 (((cfg2.win 4).blk t).view.emb p) := by
      show V c main_v43 (((cfg2.win 0).blk t).view.emb p) = _
      rw [i0]
    have hA : iblk2 V c 1 t p = V c main_v56 (((cfg2.win 4).blk t).view.emb p) := by
      show V c main_v56 (((cfg2.win 1).blk t).view.emb p) = _
      rw [i1]
    have hD : iblk2 V c 2 t (bcol p) = V c main_v12 (r0 (((cfg2.win 4).blk t).view.emb p)) := by
      show V c main_v12 (((cfg2.win 2).blk t).view.emb (bcol p)) = _
      rw [i2]
    have hB : iblk2 V c 3 t (brow p) = V c main_v57 (zq (((cfg2.win 4).blk t).view.emb p)) := by
      show V c main_v57 (((cfg2.win 3).blk t).view.emb (brow p)) = _
      rw [i3]
    unfold bpre pre
    rw [hH, hA, hD, hB]
  -- an entry's row in the block is its row in the array
  have hrow : ∀ (p : S5000x40.Idx) (k : Fin 40), ((cfg2.win 4).blk t).view.emb (bix ⟨(p 0).val, (p 0).isLt⟩ k)
      = ix ⟨((((cfg2.win 4).blk t).view.emb p) 0).val, ((((cfg2.win 4).blk t).view.emb p) 0).isLt⟩ k := fun p k => by
    funext a; apply Fin.ext
    match a with
    | ⟨0, _⟩ => show win2_4.index t (0 : Fin 2) * 5000 + 1 * (p 0).val = win2_4.index t (0 : Fin 2) * 5000 + 1 * (p 0).val; rfl
    | ⟨1, _⟩ => show win2_4.index t (1 : Fin 2) * 40 + 1 * k.val = k.val; omega
  exact blsm_eq_lsm _ (pre (V c main_v43) (V c main_v56) (V c main_v12) (V c main_v57))
    (fun p => ((cfg2.win 4).blk t).view.emb p) hpre hrow j

/-- An index of the result array is in point t's block iff each coordinate is in the block's range. -/
theorem mem_blk (t : Fin cfg2.N) (i : S100000x40.Idx) :
    i ∈ ((cfg2.win 4).blk t).view.set ↔ ∀ a : Fin 2, win2_4.index t a * S5000x40.size a ≤ (i a).val ∧ (i a).val < win2_4.index t a * S5000x40.size a + S5000x40.size a := by
  show i ∈ ((View.whole main_v58).slice (win2_4.rect t)).set ↔ _
  rw [View.set_slice_whole, Rect.mem_set_unit]
  exact Iff.rfl

/-- Row r lies in block r / 5000. -/
theorem cover (i : S100000x40.Idx) : ∃ t : Fin cfg2.N, (cfg2.win 4).flush t = true ∧ i ∈ ((cfg2.win 4).blk t).view.set := by
  have hi0 : (i 0).val < 100000 := (i 0).isLt
  have hi1 : (i 1).val < 40 := (i 1).isLt
  refine ⟨⟨(i 0).val / 5000, by show (i 0).val / 5000 < 20; omega⟩, flush2_4 _, ?_⟩
  rw [mem_blk]
  obtain ⟨e0, e1, e2, e3, e4, e5, e6, e7, e8, e9⟩ := idx_facts ⟨(i 0).val / 5000, by show (i 0).val / 5000 < 20; omega⟩
  intro a
  match a with
  | ⟨0, _⟩ => show win2_4.index _ (0 : Fin 2) * 5000 ≤ (i 0).val ∧ (i 0).val < win2_4.index _ (0 : Fin 2) * 5000 + 5000; rw [e8]; show (i 0).val / 5000 * 5000 ≤ (i 0).val ∧ (i 0).val < (i 0).val / 5000 * 5000 + 5000; omega
  | ⟨1, _⟩ => show win2_4.index _ (1 : Fin 2) * 40 ≤ (i 1).val ∧ (i 1).val < win2_4.index _ (1 : Fin 2) * 40 + 40; rw [e9]; omega

/-- The array the region leaves: the log-softmax function of the arrays it found. -/
theorem final (c : Dev nD) : (dat2 V c).arrAt 4 cfg2.N = logits (V c main_v43) (V c main_v56) (V c main_v12) (V c main_v57) :=
  (dat2 V c).arrAt_eq_of_cover 4 (logits (V c main_v43) (V c main_v56) (V c main_v12) (V c main_v57))
    (fun t _ => flushed_eq V c t) cover

end Cert.KernelIdeal.LogSoftmaxRows

end
-- ==== Proof.GraphOps.lean ====
/-
  The graph operations both programs share, as pure functions of arrays.

  A graph convolution layer with self-loops sends node features h to
      out(v) = Σ_{e : dst e = v} h(src e) · w(e) + h(v) · dinv(v)² + b,
  where deg(v) = 1 + #{e : dst e = v}, dinv = deg^(-1/2) and the edge weight is
  w(e) = dinv(src e) · dinv(dst e). Everything that reads the edge list is done on the host in both
  programs with the same operations: the two rows of the edge list (source and destination of every
  edge), the wrap of a negative index by the number of nodes, the degree as a scatter-add of ones, its
  inverse square root, the edge weights as a product of two gathers, and the weighted sum over incoming
  edges as a gather, a product with the broadcast weight, and a scatter-add into zeros. They are named
  here once, over the kernel program's shapes and dimension records, and never opened: the two programs
  are compared by showing that they hand these functions equal arguments.
-/
import proofs.«127718_j28063316312557_2_alg».proof.Proof.Gen.KernelIdeal

noncomputable section

namespace Cert.KernelIdeal.GraphOps

open Cert.KernelIdeal Cert.KernelIdeal.Facts₀ Idealize.ShloMosaic Idealize.SL.Sem

variable {F : FTy → Type} [FloatOps F]

/-- Row 0 of the edge list: every edge's source node. -/
def src (E : (⟨S2x3200000, .i32⟩ : BufTy).Contents (Elt F)) : (⟨S3200000, .i32⟩ : BufTy).Contents (Elt F) :=
  shapeCast _ (extractStridedSlice S1x3200000 ![0, 0] E slices_S2x3200000_S1x3200000_0_0) shapeCasts_S1x3200000_S3200000

/-- Row 1 of the edge list: every edge's destination node. -/
def dst (E : (⟨S2x3200000, .i32⟩ : BufTy).Contents (Elt F)) : (⟨S3200000, .i32⟩ : BufTy).Contents (Elt F) :=
  shapeCast _ (extractStridedSlice S1x3200000 ![1, 0] E slices_S2x3200000_S1x3200000_1_0) shapeCasts_S1x3200000_S3200000

/-- A node index as a gather's start index: a negative one wrapped by the number of nodes, as a column. -/
def wrapIdx (s : (⟨S3200000, .i32⟩ : BufTy).Contents (Elt F)) : (⟨S3200000x1, .i32⟩ : BufTy).Contents (Elt F) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- deg^(-1/2), the degree counting one self-loop and every incoming edge. -/
def degInv (d : (⟨S3200000, .i32⟩ : BufTy).Contents (Elt F)) : (⟨S100000, .f32⟩ : BufTy).Contents (Elt F) :=
  Host.rsqrt (addf
    (Host.scatterAdd scatter_S100000_S3200000x1_S3200000_n_0_0_1
      (broadcastInDim S100000 ![] bcast_S_S100000 (constant S_ .f32 0x00000000#32))
      (broadcastInDim S3200000x1 ![0] bcast_S3200000_S3200000x1_0 d)
      (broadcastInDim S3200000 ![] bcast_S_S3200000 (constant S_ .f32 0x3F800000#32)))
    (broadcastInDim S100000 ![] bcast_S_S100000 (constant S_ .f32 0x3F800000#32)))

/-- The edge weights dinv(src e) · dinv(dst e). -/
def edgeNorm (s d : (⟨S3200000, .i32⟩ : BufTy).Contents (Elt F)) : (⟨S3200000, .f32⟩ : BufTy).Contents (Elt F) :=
  mulf (Host.gather gather_S100000_S3200000x1_S3200000_n_0_n_n_0_1_1 (degInv d) (wrapIdx s)) (Host.gather gather_S100000_S3200000x1_S3200000_n_0_n_n_0_1_1 (degInv d) (wrapIdx d))

/-- The self-loop weights dinv(v)² as a column. -/
def selfCol (dv : (⟨S100000, .f32⟩ : BufTy).Contents (Elt F)) : (⟨S100000x1, .f32⟩ : BufTy).Contents (Elt F) :=
  shapeCast _ (mulf dv dv) shapeCasts_S100000_S100000x1

/-- A bias as a row. -/
def biasRow16 (b : (⟨S16, .f32⟩ : BufTy).Contents (Elt F)) : (⟨S1x16, .f32⟩ : BufTy).Contents (Elt F) := shapeCast _ b shapeCasts_S16_S1x16
def biasRow40 (b : (⟨S40, .f32⟩ : BufTy).Contents (Elt F)) : (⟨S1x40, .f32⟩ : BufTy).Contents (Elt F) := shapeCast _ b shapeCasts_S40_S1x40

/-- The weighted sum over incoming edges of 16 features: Σ_{e : dst e = v} h(src e) · w(e). -/
def agg16 (s d : (⟨S3200000, .i32⟩ : BufTy).Contents (Elt F)) (w : (⟨S3200000, .f32⟩ : BufTy).Contents (Elt F)) (h : (⟨S100000x16, .f32⟩ : BufTy).Contents (Elt F)) : (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 d)
    (mulf (Host.gather gather_S100000x16_S3200000x1_S3200000x16_1_0_n_n_0_1_116 h (wrapIdx s))
      (broadcastInDim S3200000x16 ![0, 1] bcast_S3200000x1_S3200000x16_0_1 (broadcastInDim S3200000x1 ![0] bcast_S3200000_S3200000x1_0 w)))

/-- The same of 40 features. -/
def agg40 (s d : (⟨S3200000, .i32⟩ : BufTy).Contents (Elt F)) (w : (⟨S3200000, .f32⟩ : BufTy).Contents (Elt F)) (h : (⟨S100000x40, .f32⟩ : BufTy).Contents (Elt F)) : (⟨S100000x40, .f32⟩ : BufTy).Contents (Elt F) :=
  Host.scatterAdd scatter_S100000x40_S3200000x1_S3200000x40_1_0_0_1
    (broadcastInDim S100000x40 ![] bcast_S_S100000x40 (constant S_ .f32 0x00000000#32))
    (broadcastInDim S3200000x1 ![0] bcast_S3200000_S3200000x1_0 d)
    (mulf (Host.gather gather_S100000x40_S3200000x1_S3200000x40_1_0_n_n_0_1_140 h (wrapIdx s))
      (broadcastInDim S3200000x40 ![0, 1] bcast_S3200000x1_S3200000x40_0_1 (broadcastInDim S3200000x1 ![0] bcast_S3200000_S3200000x1_0 w)))

end Cert.KernelIdeal.GraphOps

end
-- ==== Proof.Stretches.lean ====
/-
  What each stretch of host operations of the idealized kernel's @main leaves in the buffers the three
  kernel regions and the later stretches read, for ANY contents V of the buffers when the stretch
  starts: a buffer the stretch computes holds the shared graph operation of the buffers it reads, and a
  buffer the stretch does not write holds what it held.

  Stretch 0 (before the first region) reads only the edge list: the two endpoint arrays, the self-loop
  column dinv², the edge weights. Stretch 1 (between the first two regions) aggregates the first
  region's product over incoming edges and lays the first bias out as a row. Stretch 2 does the same
  with the second region's output and the second bias.
-/
import proofs.«127718_j28063316312557_2_alg».proof.Proof.Gen.KernelIdeal.Launch
import proofs.«127718_j28063316312557_2_alg».proof.Proof.GraphOps
import Idealize.ShloMosaic.Lib.StableHlo.Run

set_option maxRecDepth 16384

noncomputable section

namespace Cert.KernelIdeal.Stretches

open Cert.KernelIdeal Cert.KernelIdeal.Gen Cert.KernelIdeal.GraphOps
open Idealize.ShloMosaic Idealize.ShloMosaic.TcCoe Idealize.SL.Sem Idealize.ShloMosaic.StableHlo

variable {F : FTy → Type} [FloatOps F] (V : Valuation τ sig (Elt F))

/-! ## Stretch 0 -/

theorem s0_src : (after hostOps0 V (Proc.devRef .tc main_v1) : (⟨S3200000, .i32⟩ : BufTy).Contents (Elt F)) = src (V (Proc.devRef .tc main_arg1)) := by
  dsimp only [hostOps0]
  after_results
  first | rfl | skip
theorem s0_dst : (after hostOps0 V (Proc.devRef .tc main_v3) : (⟨S3200000, .i32⟩ : BufTy).Contents (Elt F)) = dst (V (Proc.devRef .tc main_arg1)) := by
  dsimp only [hostOps0]
  after_results
  first | rfl | skip
theorem s0_col : (after hostOps0 V (Proc.devRef .tc main_v12) : (⟨S100000x1, .f32⟩ : BufTy).Contents (Elt F)) = selfCol (degInv (dst (V (Proc.devRef .tc main_arg1)))) := by
  dsimp only [hostOps0]
  after_results
  first | rfl | skip
set_option maxHeartbeats 4000000 in
theorem s0_norm : (after hostOps0 V (Proc.devRef .tc main_v27) : (⟨S3200000, .f32⟩ : BufTy).Contents (Elt F)) = edgeNorm (src (V (Proc.devRef .tc main_arg1))) (dst (V (Proc.devRef .tc main_arg1))) := by
  dsimp only [hostOps0]
  after_results_simp
  first | rfl | skip
theorem s0_arg0 : after hostOps0 V (Proc.devRef .tc main_arg0) = V (Proc.devRef .tc main_arg0) := by
  dsimp only [hostOps0]
  after_results
theorem s0_arg2 : after hostOps0 V (Proc.devRef .tc main_arg2) = V (Proc.devRef .tc main_arg2) := by
  dsimp only [hostOps0]
  after_results
theorem s0_arg3 : after hostOps0 V (Proc.devRef .tc main_arg3) = V (Proc.devRef .tc main_arg3) := by
  dsimp only [hostOps0]
  after_results
theorem s0_arg4 : after hostOps0 V (Proc.devRef .tc main_arg4) = V (Proc.devRef .tc main_arg4) := by
  dsimp only [hostOps0]
  after_results
theorem s0_arg5 : after hostOps0 V (Proc.devRef .tc main_arg5) = V (Proc.devRef .tc main_arg5) := by
  dsimp only [hostOps0]
  after_results

/-! ## Stretch 1 -/

set_option maxHeartbeats 4000000 in
theorem s1_agg : (after hostOps1 V (Proc.devRef .tc main_v41) : (⟨S100000x16, .f32⟩ : BufTy).Contents (Elt F)) = agg16 (V (Proc.devRef .tc main_v1)) (V (Proc.devRef .tc main_v3)) (V (Proc.devRef .tc main_v27)) (V (Proc.devRef .tc main_v28)) := by
  dsimp only [hostOps1]
  after_results_simp
  first | rfl | skip
theorem s1_bias : (after hostOps1 V (Proc.devRef .tc main_v42) : (⟨S1x16, .f32⟩ : BufTy).Contents (Elt F)) = biasRow16 (V (Proc.devRef .tc main_arg3)) := by
  dsimp only [hostOps1]
  after_results
  first | rfl | skip
theorem s1_v1 : after hostOps1 V (Proc.devRef .tc main_v1) = V (Proc.devRef .tc main_v1) := by
  dsimp only [hostOps1]
  after_results
theorem s1_v3 : after hostOps1 V (Proc.devRef .tc main_v3) = V (Proc.devRef .tc main_v3) := by
  dsimp only [hostOps1]
  after_results
theorem s1_v12 : after hostOps1 V (Proc.devRef .tc main_v12) = V (Proc.devRef .tc main_v12) := by
  dsimp only [hostOps1]
  after_results
theorem s1_v27 : after hostOps1 V (Proc.devRef .tc main_v27) = V (Proc.devRef .tc main_v27) := by
  dsimp only [hostOps1]
  after_results
theorem s1_v28 : after hostOps1 V (Proc.devRef .tc main_v28) = V (Proc.devRef .tc main_v28) := by
  dsimp only [hostOps1]
  after_results
theorem s1_arg4 : after hostOps1 V (Proc.devRef .tc main_arg4) = V (Proc.devRef .tc main_arg4) := by
  dsimp only [hostOps1]
  after_results
theorem s1_arg5 : after hostOps1 V (Proc.devRef .tc main_arg5) = V (Proc.devRef .tc main_arg5) := by
  dsimp only [hostOps1]
  after_results

/-! ## Stretch 2 -/

set_option maxHeartbeats 4000000 in
theorem s2_agg : (after hostOps2 V (Proc.devRef .tc main_v56) : (⟨S100000x40, .f32⟩ : BufTy).Contents (Elt F)) = agg40 (V (Proc.devRef .tc main_v1)) (V (Proc.devRef .tc main_v3)) (V (Proc.devRef .tc main_v27)) (V (Proc.devRef .tc main_v43)) := by
  dsimp only [hostOps2]
  after_results_simp
  first | rfl | skip
theorem s2_bias : (after hostOps2 V (Proc.devRef .tc main_v57) : (⟨S1x40, .f32⟩ : BufTy).Contents (Elt F)) = biasRow40 (V (Proc.devRef .tc main_arg5)) := by
  dsimp only [hostOps2]
  after_results
  first | rfl | skip
theorem s2_v12 : after hostOps2 V (Proc.devRef .tc main_v12) = V (Proc.devRef .tc main_v12) := by
  dsimp only [hostOps2]
  after_results
theorem s2_v43 : after hostOps2 V (Proc.devRef .tc main_v43) = V (Proc.devRef .tc main_v43) := by
  dsimp only [hostOps2]
  after_results

end Cert.KernelIdeal.Stretches

end
-- ==== Proof.KernelValue.lean ====
/-
  The array the idealized kernel returns, as one function of its six arguments.

  Reading the result buffer back through @main's six segment boundaries: the third region leaves the
  row-wise log-softmax of (a₂ + h₂ · dinv²) + b₂ of the arrays it found; of those, a₂ is the second
  stretch's aggregate over incoming edges of h₂, the second region's array, which is
  relu((a₁ + h₁ · dinv²) + b₁) · W₂ of the arrays that region found; a₁ is the first stretch's aggregate
  of h₁ = x · W₁, the first region's array; and the endpoint arrays, the edge weights and the self-loop
  column are what the stretch before the first region computed from the edge list, carried unchanged
  through every later boundary (no later stretch or region writes them).
-/
import proofs.«127718_j28063316312557_2_alg».proof.Proof.ResultRun
import proofs.«127718_j28063316312557_2_alg».proof.Proof.FeatureProduct
import proofs.«127718_j28063316312557_2_alg».proof.Proof.HiddenLayer
import proofs.«127718_j28063316312557_2_alg».proof.Proof.LogSoftmaxRows
import proofs.«127718_j28063316312557_2_alg».proof.Proof.Stretches

set_option maxRecDepth 16384

noncomputable section

namespace Cert.KernelIdeal.KernelValue

open Cert.KernelIdeal Cert.KernelIdeal.Gen Cert.KernelIdeal.GraphOps Cert.KernelIdeal.Stretches
open Cert.KernelIdeal.FeatureProduct (xw)
open Cert.KernelIdeal.HiddenLayer (hidden)
open Cert.KernelIdeal.LogSoftmaxRows (logits)
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch -/

theorem l1_src : W1 m ρ c (Proc.devRef .tc main_v1) = src (m ((c : Thread nD τ).loc main_arg1)) := s0_src (W0 m ρ c)
theorem l1_dst : W1 m ρ c (Proc.devRef .tc main_v3) = dst (m ((c : Thread nD τ).loc main_arg1)) := s0_dst (W0 m ρ c)
theorem l1_norm : W1 m ρ c (Proc.devRef .tc main_v27) = (edgeNorm (src (m ((c : Thread nD τ).loc main_arg1))) (dst (m ((c : Thread nD τ).loc main_arg1)))) := s0_norm (W0 m ρ c)
theorem l1_col : W1 m ρ c (Proc.devRef .tc main_v12) = (selfCol (degInv (dst (m ((c : Thread nD τ).loc main_arg1))))) := s0_col (W0 m ρ c)
theorem l1_arg0 : W1 m ρ c (Proc.devRef .tc main_arg0) = (m ((c : Thread nD τ).loc main_arg0)) := s0_arg0 (W0 m ρ c)
theorem l1_arg2 : W1 m ρ c (Proc.devRef .tc main_arg2) = (m ((c : Thread nD τ).loc main_arg2)) := s0_arg2 (W0 m ρ c)
theorem l1_arg3 : W1 m ρ c (Proc.devRef .tc main_arg3) = (m ((c : Thread nD τ).loc main_arg3)) := s0_arg3 (W0 m ρ c)
theorem l1_arg4 : W1 m ρ c (Proc.devRef .tc main_arg4) = (m ((c : Thread nD τ).loc main_arg4)) := s0_arg4 (W0 m ρ c)
theorem l1_arg5 : W1 m ρ c (Proc.devRef .tc main_arg5) = (m ((c : Thread nD τ).loc main_arg5)) := s0_arg5 (W0 m ρ c)

/-! ## After the first region: its array is x · W₁, every other buffer as before -/

theorem l2_h1 : W2 m ρ c (Proc.devRef .tc main_v28) = (xw (m ((c : Thread nD τ).loc main_arg0)) (m ((c : Thread nD τ).loc main_arg2))) := by
  refine (W2_arr m ρ c 2).trans ((FeatureProduct.final (V1 m ρ) c).trans ?_)
  show xw (W1 m ρ c (Proc.devRef .tc main_arg0)) (W1 m ρ c (Proc.devRef .tc main_arg2)) = _
  rw [l1_arg0, l1_arg2]
theorem l2_src : W2 m ρ c (Proc.devRef .tc main_v1) = src (m ((c : Thread nD τ).loc main_arg1)) := (W2_of_ne m ρ c main_v1 (by decide)).trans (l1_src m ρ c)
theorem l2_dst : W2 m ρ c (Proc.devRef .tc main_v3) = dst (m ((c : Thread nD τ).loc main_arg1)) := (W2_of_ne m ρ c main_v3 (by decide)).trans (l1_dst m ρ c)
theorem l2_norm : W2 m ρ c (Proc.devRef .tc main_v27) = (edgeNorm (src (m ((c : Thread nD τ).loc main_arg1))) (dst (m ((c : Thread nD τ).loc main_arg1)))) := (W2_of_ne m ρ c main_v27 (by decide)).trans (l1_norm m ρ c)
theorem l2_col : W2 m ρ c (Proc.devRef .tc main_v12) = (selfCol (degInv (dst (m ((c : Thread nD τ).loc main_arg1))))) := (W2_of_ne m ρ c main_v12 (by decide)).trans (l1_col m ρ c)
theorem l2_arg3 : W2 m ρ c (Proc.devRef .tc main_arg3) = (m ((c : Thread nD τ).loc main_arg3)) := (W2_of_ne m ρ c main_arg3 (by decide)).trans (l1_arg3 m ρ c)
theorem l2_arg4 : W2 m ρ c (Proc.devRef .tc main_arg4) = (m ((c : Thread nD τ).loc main_arg4)) := (W2_of_ne m ρ c main_arg4 (by decide)).trans (l1_arg4 m ρ c)
theorem l2_arg5 : W2 m ρ c (Proc.devRef .tc main_arg5) = (m ((c : Thread nD τ).loc main_arg5)) := (W2_of_ne m ρ c main_arg5 (by decide)).trans (l1_arg5 m ρ c)

/-! ## After the second stretch -/

theorem l3_h1 : W3 m ρ c (Proc.devRef .tc main_v28) = (xw (m ((c : Thread nD τ).loc main_arg0)) (m ((c : Thread nD τ).loc main_arg2))) := (s1_v28 (W2 m ρ c)).trans (l2_h1 m ρ c)
theorem l3_src : W3 m ρ c (Proc.devRef .tc main_v1) = src (m ((c : Thread nD τ).loc main_arg1)) := (s1_v1 (W2 m ρ c)).trans (l2_src m ρ c)
theorem l3_dst : W3 m ρ c (Proc.devRef .tc main_v3) = dst (m ((c : Thread nD τ).loc main_arg1)) := (s1_v3 (W2 m ρ c)).trans (l2_dst m ρ c)
theorem l3_norm : W3 m ρ c (Proc.devRef .tc main_v27) = (edgeNorm (src (m ((c : Thread nD τ).loc main_arg1))) (dst (m ((c : Thread nD τ).loc main_arg1)))) := (s1_v27 (W2 m ρ c)).trans (l2_norm m ρ c)
theorem l3_col : W3 m ρ c (Proc.devRef .tc main_v12) = (selfCol (degInv (dst (m ((c : Thread nD τ).loc main_arg1))))) := (s1_v12 (W2 m ρ c)).trans (l2_col m ρ c)
theorem l3_arg4 : W3 m ρ c (Proc.devRef .tc main_arg4) = (m ((c : Thread nD τ).loc main_arg4)) := (s1_arg4 (W2 m ρ c)).trans (l2_arg4 m ρ c)
theorem l3_arg5 : W3 m ρ c (Proc.devRef .tc main_arg5) = (m ((c : Thread nD τ).loc main_arg5)) := (s1_arg5 (W2 m ρ c)).trans (l2_arg5 m ρ c)
theorem l3_agg : W3 m ρ c (Proc.devRef .tc main_v41) = (agg16 (src (m ((c : Thread nD τ).loc main_arg1))) (dst (m ((c : Thread nD τ).loc main_arg1))) (edgeNorm (src (m ((c : Thread nD τ).loc main_arg1))) (dst (m ((c : Thread nD τ).loc main_arg1)))) (xw (m ((c : Thread nD τ).loc main_arg0)) (m ((c : Thread nD τ).loc main_arg2)))) := by
  refine (s1_agg (W2 m ρ c)).trans ?_
  rw [l2_src, l2_dst, l2_norm, l2_h1]
theorem l3_bias : W3 m ρ c (Proc.devRef .tc main_v42) = biasRow16 (m ((c : Thread nD τ).loc main_arg3)) := by
  refine (s1_bias (W2 m ρ c)).trans ?_
  rw [l2_arg3]

/-! ## After the second region: its array is the hidden-layer function, every other buffer as before -/

theorem l4_h2 : W4 m ρ c (Proc.devRef .tc main_v43) = (hidden (xw (m ((c : Thread nD τ).loc main_arg0)) (m ((c : Thread nD τ).loc main_arg2))) (agg16 (src (m ((c : Thread nD τ).loc main_arg1))) (dst (m ((c : Thread nD τ).loc main_arg1))) (edgeNorm (src (m ((c : Thread nD τ).loc main_arg1))) (dst (m ((c : Thread nD τ).loc main_arg1)))) (xw (m ((c : Thread nD τ).loc main_arg0)) (m ((c : Thread nD τ).loc main_arg2)))) (selfCol (degInv (dst (m ((c : Thread nD τ).loc main_arg1))))) (biasRow16 (m ((c : Thread nD τ).loc main_arg3))) (m ((c : Thread nD τ).loc main_arg4))) := by
  refine (W4_arr m ρ c 5).trans ((HiddenLayer.final (V3 m ρ) c).trans ?_)
  show hidden (W3 m ρ c (Proc.devRef .tc main_v28)) (W3 m ρ c (Proc.devRef .tc main_v41)) (W3 m ρ c (Proc.devRef .tc main_v12))
    (W3 m ρ c (Proc.devRef .tc main_v42)) (W3 m ρ c (Proc.devRef .tc main_arg4)) = _
  rw [l3_h1, l3_agg, l3_col, l3_bias, l3_arg4]
theorem l4_src : W4 m ρ c (Proc.devRef .tc main_v1) = src (m ((c : Thread nD τ).loc main_arg1)) := (W4_of_ne m ρ c main_v1 (by decide)).trans (l3_src m ρ c)
theorem l4_dst : W4 m ρ c (Proc.devRef .tc main_v3) = dst (m ((c : Thread nD τ).loc main_arg1)) := (W4_of_ne m ρ c main_v3 (by decide)).trans (l3_dst m ρ c)
theorem l4_norm : W4 m ρ c (Proc.devRef .tc main_v27) = (edgeNorm (src (m ((c : Thread nD τ).loc main_arg1))) (dst (m ((c : Thread nD τ).loc main_arg1)))) := (W4_of_ne m ρ c main_v27 (by decide)).trans (l3_norm m ρ c)
theorem l4_arg5 : W4 m ρ c (Proc.devRef .tc main_arg5) = (m ((c : Thread nD τ).loc main_arg5)) := (W4_of_ne m ρ c main_arg5 (by decide)).trans (l3_arg5 m ρ c)
theorem l4_col : W4 m ρ c (Proc.devRef .tc main_v12) = (selfCol (degInv (dst (m ((c : Thread nD τ).loc main_arg1))))) :=
  ((W4_arr m ρ c 2).trans (((dat1 (V3 m ρ) c).arrAt_in 2 rfl _).trans (A_eq1 (V3 m ρ) c 2))).trans (l3_col m ρ c)

/-! ## After the third stretch -/

theorem l5_h2 : W5 m ρ c (Proc.devRef .tc main_v43) = (hidden (xw (m ((c : Thread nD τ).loc main_arg0)) (m ((c : Thread nD τ).loc main_arg2))) (agg16 (src (m ((c : Thread nD τ).loc main_arg1))) (dst (m ((c : Thread nD τ).loc main_arg1))) (edgeNorm (src (m ((c : Thread nD τ).loc main_arg1))) (dst (m ((c : Thread nD τ).loc main_arg1)))) (xw (m ((c : Thread nD τ).loc main_arg0)) (m ((c : Thread nD τ).loc main_arg2)))) (selfCol (degInv (dst (m ((c : Thread nD τ).loc main_arg1))))) (biasRow16 (m ((c : Thread nD τ).loc main_arg3))) (m ((c : Thread nD τ).loc main_arg4))) := (s2_v43 (W4 m ρ c)).trans (l4_h2 m ρ c)
theorem l5_col : W5 m ρ c (Proc.devRef .tc main_v12) = (selfCol (degInv (dst (m ((c : Thread nD τ).loc main_arg1))))) := (s2_v12 (W4 m ρ c)).trans (l4_col m ρ c)
theorem l5_agg : W5 m ρ c (Proc.devRef .tc main_v56) = (agg40 (src (m ((c : Thread nD τ).loc main_arg1))) (dst (m ((c : Thread nD τ).loc main_arg1))) (edgeNorm (src (m ((c : Thread nD τ).loc main_arg1))) (dst (m ((c : Thread nD τ).loc main_arg1)))) (hidden (xw (m ((c : Thread nD τ).loc main_arg0)) (m ((c : Thread nD τ).loc main_arg2))) (agg16 (src (m ((c : Thread nD τ).loc main_arg1))) (dst (m ((c : Thread nD τ).loc main_arg1))) (edgeNorm (src (m ((c : Thread nD τ).loc main_arg1))) (dst (m ((c : Thread nD τ).loc main_arg1)))) (xw (m ((c : Thread nD τ).loc main_arg0)) (m ((c : Thread nD τ).loc main_arg2)))) (selfCol (degInv (dst (m ((c : Thread nD τ).loc main_arg1))))) (biasRow16 (m ((c : Thread nD τ).loc main_arg3))) (m ((c : Thread nD τ).loc main_arg4)))) := by
  refine (s2_agg (W4 m ρ c)).trans ?_
  rw [l4_src, l4_dst, l4_norm, l4_h2]
theorem l5_bias : W5 m ρ c (Proc.devRef .tc main_v57) = biasRow40 (m ((c : Thread nD τ).loc main_arg5)) := by
  refine (s2_bias (W4 m ρ c)).trans ?_
  rw [l4_arg5]

/-! ## The result -/

/-- The returned array: the log-softmax of the second layer's rows. -/
theorem result : W6 m ρ c (Proc.devRef .tc main_v58) = logits (hidden (xw (m ((c : Thread nD τ).loc main_arg0)) (m ((c : Thread nD τ).loc main_arg2))) (agg16 (src (m ((c : Thread nD τ).loc main_arg1))) (dst (m ((c : Thread nD τ).loc main_arg1))) (edgeNorm (src (m ((c : Thread nD τ).loc main_arg1))) (dst (m ((c : Thread nD τ).loc main_arg1)))) (xw (m ((c : Thread nD τ).loc main_arg0)) (m ((c : Thread nD τ).loc main_arg2)))) (selfCol (degInv (dst (m ((c : Thread nD τ).loc main_arg1))))) (biasRow16 (m ((c : Thread nD τ).loc main_arg3))) (m ((c : Thread nD τ).loc main_arg4))) (agg40 (src (m ((c : Thread nD τ).loc main_arg1))) (dst (m ((c : Thread nD τ).loc main_arg1))) (edgeNorm (src (m ((c : Thread nD τ).loc main_arg1))) (dst (m ((c : Thread nD τ).loc main_arg1)))) (hidden (xw (m ((c : Thread nD τ).loc main_arg0)) (m ((c : Thread nD τ).loc main_arg2))) (agg16 (src (m ((c : Thread nD τ).loc main_arg1))) (dst (m ((c : Thread nD τ).loc main_arg1))) (edgeNorm (src (m ((c : Thread nD τ).loc main_arg1))) (dst (m ((c : Thread nD τ).loc main_arg1)))) (xw (m ((c : Thread nD τ).loc main_arg0)) (m ((c : Thread nD τ).loc main_arg2)))) (selfCol (degInv (dst (m ((c : Thread nD τ).loc main_arg1))))) (biasRow16 (m ((c : Thread nD τ).loc main_arg3))) (m ((c : Thread nD τ).loc main_arg4)))) (selfCol (degInv (dst (m ((c : Thread nD τ).loc main_arg1))))) (biasRow40 (m ((c : Thread nD τ).loc main_arg5))) := by
  refine (W6_arr m ρ c 4).trans ((LogSoftmaxRows.final (V5 m ρ) c).trans ?_)
  show logits (W5 m ρ c (Proc.devRef .tc main_v43)) (W5 m ρ c (Proc.devRef .tc main_v56)) (W5 m ρ c (Proc.devRef .tc main_v12))
    (W5 m ρ c (Proc.devRef .tc main_v57)) = _
  rw [l5_h2, l5_agg, l5_col, l5_bias]

end Cert.KernelIdeal.KernelValue

end
-- ==== Proof.RefChunks.lean ====
/-
  The reference's run, opened in four consecutive chunks of its operations.

  The reference computes the same two graph-convolution layers entirely on the host: the endpoint
  arrays, x · W₁ as one whole product, dinv and the edge weights; then the aggregate of the product over
  incoming edges, the combine (a + h · dinv²) + b₁ with dinv² and b₁ broadcast, relu, and the product
  with W₂; then dinv and the edge weights once more (the same functions of the same edge list); then the
  second aggregate, the second combine and the row-wise log-softmax. For ANY contents V of the buffers
  when a chunk starts, a buffer the chunk computes holds a named function of the buffers it reads —
  the shared graph operations for everything that reads the edge list, the reference's own dense and
  pointwise forms for the rest — and a buffer it does not write holds what it held. Chained from the
  launch memory this gives the array the reference returns as one function of its six arguments.
-/
import proofs.«127718_j28063316312557_2_alg».proof.Proof.RefRun
import proofs.«127718_j28063316312557_2_alg».proof.Proof.GraphOps
import Idealize.ShloMosaic.Lib.StableHlo.Run

set_option maxRecDepth 16384

noncomputable section

namespace Cert.ReferenceIdeal.Chunks

open Cert.ReferenceIdeal Cert.ReferenceIdeal.Gen Cert.ReferenceIdeal.Value
open Idealize.ShloMosaic Idealize.ShloMosaic.TcCoe Idealize.SL.Sem Idealize.ShloMosaic.StableHlo
open Cert.KernelIdeal.GraphOps (src dst degInv edgeNorm agg16 agg40)

variable {F : FTy → Type} [FloatOps F]

/-! ## The reference's own forms -/

/-- Layer 1 after the aggregate: relu((a + h · dinv²) + b) · W, dinv² and b broadcast over the array. -/
def layer1R (h a : (⟨S100000x16, .f32⟩ : BufTy).Contents (Elt F)) (dv : (⟨S100000, .f32⟩ : BufTy).Contents (Elt F)) (b : (⟨S16, .f32⟩ : BufTy).Contents (Elt F)) (W : (⟨S16x40, .f32⟩ : BufTy).Contents (Elt F)) :
    (⟨S100000x40, .f32⟩ : BufTy).Contents (Elt F) :=
  Host.dotGeneral dot_S100000x16_S16x40_S100000x40_1_0_0_1_n_n none
    (maximumf
      (addf
        (addf a (mulf h (broadcastInDim S100000x16 ![0, 1] bcast_S100000x1_S100000x16_0_1 (broadcastInDim S100000x1 ![0] bcast_S100000_S100000x1_0 (mulf dv dv)))))
        (broadcastInDim S100000x16 ![0, 1] bcast_S1x16_S100000x16_0_1 (broadcastInDim S1x16 ![1] bcast_S16_S1x16_1 b)))
      (broadcastInDim S100000x16 ![] bcast_S_S100000x16 (constant S_ .f32 0x00000000#32)))
    W

/-- Layer 2's combine: (a + h · dinv²) + b. -/
def preR (h a : (⟨S100000x40, .f32⟩ : BufTy).Contents (Elt F)) (dv : (⟨S100000, .f32⟩ : BufTy).Contents (Elt F)) (b : (⟨S40, .f32⟩ : BufTy).Contents (Elt F)) : (⟨S100000x40, .f32⟩ : BufTy).Contents (Elt F) :=
  addf
    (addf a (mulf h (broadcastInDim S100000x40 ![0, 1] bcast_S100000x1_S100000x40_0_1 (broadcastInDim S100000x1 ![0] bcast_S100000_S100000x1_0 (mulf dv dv)))))
    (broadcastInDim S100000x40 ![0, 1] bcast_S1x40_S100000x40_0_1 (broadcastInDim S1x40 ![1] bcast_S40_S1x40_1 b))

/-- The row maxima, broadcast back over the array: max(-∞, the host's max-reduce of each row). -/
def rowMaxR (z : (⟨S100000x40, .f32⟩ : BufTy).Contents (Elt F)) : (⟨S100000x40, .f32⟩ : BufTy).Contents (Elt F) :=
  broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x40_S100000_d1 h_S_)))

/-- The row-wise log-softmax as the reference spells it. -/
def lsmR (z : (⟨S100000x40, .f32⟩ : BufTy).Contents (Elt F)) : (⟨S100000x40, .f32⟩ : BufTy).Contents (Elt F) :=
  subf (subf z (rowMaxR z))
    (broadcastInDim S100000x40 ![0, 1] bcast_S100000x1_S100000x40_0_1
      (Host.log (broadcastInDim S100000x1 ![0] bcast_S100000_S100000x1_0
        (Host.reduceAdd (Host.exp (subf z (rowMaxR z))) (constant S_ .f32 0x00000000#32) reducesTo_S100000x40_S100000_d1 h_S_))))

/-! ## The four chunks -/

abbrev chunkA : List (HloOp τ sig (Elt F)) := (ops (F := F)).take 34
abbrev chunkB : List (HloOp τ sig (Elt F)) := ((ops (F := F)).drop 34).take 28
abbrev chunkC : List (HloOp τ sig (Elt F)) := ((ops (F := F)).drop 62).take 29
abbrev chunkD : List (HloOp τ sig (Elt F)) := (ops (F := F)).drop 91

theorem after_append (l1 l2 : List (HloOp τ sig (Elt F))) (V : Valuation τ sig (Elt F)) :
    after (l1 ++ l2) V = after l2 (after l1 V) := by
  induction l1 generalizing V with
  | nil => rfl
  | cons op l ih => exact ih _

theorem ops_split : (ops (F := F)) = chunkA ++ (chunkB ++ (chunkC ++ chunkD)) := rfl

/-- A typed reference's two transports are inverse. -/
theorem ofBuf_toBuf {T : BufTy} (x : TRef sig T) (v : T.Contents (Elt F)) : x.ofBuf (x.toBuf v) = v := by
  obtain ⟨r, h, _, _⟩ := x
  subst h
  rfl

/-- The log-softmax call's argument buffer holds [100000, 40] floats: its transport is the identity. -/
theorem ofBuf_v92 (w : (⟨S100000x40, .f32⟩ : BufTy).Contents (Elt F)) : (TRef.of (T := ⟨S100000x40, .f32⟩) main_v92).ofBuf w = w := rfl

/-- So does its result buffer. -/
theorem toBuf_v93 (w : (⟨S100000x40, .f32⟩ : BufTy).Contents (Elt F)) : (TRef.of (T := ⟨S100000x40, .f32⟩) main_v93).toBuf w = w := rfl

variable (V : Valuation τ sig (Elt F))

/-! ### Chunk A: the endpoints, x · W₁, dinv, the edge weights -/

set_option maxHeartbeats 4000000 in
theorem a_src : (after chunkA V (Proc.devRef .tc main_v1) : (⟨S3200000, .i32⟩ : BufTy).Contents (Elt F)) = src (V (Proc.devRef .tc main_arg1)) := by
  simp only [chunkA, ops, List.take_succ_cons, List.take_zero]
  after_results_simp
  first | rfl | skip
set_option maxHeartbeats 4000000 in
theorem a_dst : (after chunkA V (Proc.devRef .tc main_v3) : (⟨S3200000, .i32⟩ : BufTy).Contents (Elt F)) = dst (V (Proc.devRef .tc main_arg1)) := by
  simp only [chunkA, ops, List.take_succ_cons, List.take_zero]
  after_results_simp
  first | rfl | skip
set_option maxHeartbeats 4000000 in
theorem a_h1 : (after chunkA V (Proc.devRef .tc main_v4) : (⟨S100000x16, .f32⟩ : BufTy).Contents (Elt F)) = Host.dotGeneral dot_S100000x128_S128x16_S100000x16_1_0_0_1_n_n none (V (Proc.devRef .tc main_arg0)) (V (Proc.devRef .tc main_arg2)) := by
  simp only [chunkA, ops, List.take_succ_cons, List.take_zero]
  after_results_simp
  first | rfl | skip
set_option maxHeartbeats 4000000 in
theorem a_dinv : (after chunkA V (Proc.devRef .tc main_v11) : (⟨S100000, .f32⟩ : BufTy).Contents (Elt F)) = degInv (dst (V (Proc.devRef .tc main_arg1))) := by
  simp only [chunkA, ops, List.take_succ_cons, List.take_zero]
  after_results_simp
  first | rfl | skip
set_option maxHeartbeats 4000000 in
theorem a_norm : (after chunkA V (Proc.devRef .tc main_v26) : (⟨S3200000, .f32⟩ : BufTy).Contents (Elt F)) = edgeNorm (src (V (Proc.devRef .tc main_arg1))) (dst (V (Proc.devRef .tc main_arg1))) := by
  simp only [chunkA, ops, List.take_succ_cons, List.take_zero]
  after_results_simp
  first | rfl | skip
set_option maxHeartbeats 4000000 in
theorem a_arg3 : after chunkA V (Proc.devRef .tc main_arg3) = V (Proc.devRef .tc main_arg3) := by
  simp only [chunkA, ops, List.take_succ_cons, List.take_zero]
  after_results_simp
set_option maxHeartbeats 4000000 in
theorem a_arg4 : after chunkA V (Proc.devRef .tc main_arg4) = V (Proc.devRef .tc main_arg4) := by
  simp only [chunkA, ops, List.take_succ_cons, List.take_zero]
  after_results_simp
set_option maxHeartbeats 4000000 in
theorem a_arg5 : after chunkA V (Proc.devRef .tc main_arg5) = V (Proc.devRef .tc main_arg5) := by
  simp only [chunkA, ops, List.take_succ_cons, List.take_zero]
  after_results_simp

/-! ### Chunk B: layer 1 -/

set_option maxHeartbeats 4000000 in
theorem b_h2 : (after chunkB V (Proc.devRef .tc main_v49) : (⟨S100000x40, .f32⟩ : BufTy).Contents (Elt F)) = layer1R (V (Proc.devRef .tc main_v4)) (agg16 (V (Proc.devRef .tc main_v1)) (V (Proc.devRef .tc main_v3)) (V (Proc.devRef .tc main_v26)) (V (Proc.devRef .tc main_v4))) (V (Proc.devRef .tc main_v11)) (V (Proc.devRef .tc main_arg3)) (V (Proc.devRef .tc main_arg4)) := by
  simp only [chunkB, ops, List.take_succ_cons, List.take_zero, List.drop_succ_cons, List.drop_zero]
  after_results_simp
  first | rfl | skip
set_option maxHeartbeats 4000000 in
theorem b_v1 : after chunkB V (Proc.devRef .tc main_v1) = V (Proc.devRef .tc main_v1) := by
  simp only [chunkB, ops, List.take_succ_cons, List.take_zero, List.drop_succ_cons, List.drop_zero]
  after_results_simp
set_option maxHeartbeats 4000000 in
theorem b_v3 : after chunkB V (Proc.devRef .tc main_v3) = V (Proc.devRef .tc main_v3) := by
  simp only [chunkB, ops, List.take_succ_cons, List.take_zero, List.drop_succ_cons, List.drop_zero]
  after_results_simp
set_option maxHeartbeats 4000000 in
theorem b_arg5 : after chunkB V (Proc.devRef .tc main_arg5) = V (Proc.devRef .tc main_arg5) := by
  simp only [chunkB, ops, List.take_succ_cons, List.take_zero, List.drop_succ_cons, List.drop_zero]
  after_results_simp

/-! ### Chunk C: dinv and the edge weights again -/

set_option maxHeartbeats 4000000 in
theorem c_dinv : (after chunkC V (Proc.devRef .tc main_v56) : (⟨S100000, .f32⟩ : BufTy).Contents (Elt F)) = degInv (V (Proc.devRef .tc main_v3)) := by
  simp only [chunkC, ops, List.take_succ_cons, List.take_zero, List.drop_succ_cons, List.drop_zero]
  after_results_simp
  first | rfl | skip
set_option maxHeartbeats 4000000 in
theorem c_norm : (after chunkC V (Proc.devRef .tc main_v71) : (⟨S3200000, .f32⟩ : BufTy).Contents (Elt F)) = edgeNorm (V (Proc.devRef .tc main_v1)) (V (Proc.devRef .tc main_v3)) := by
  simp only [chunkC, ops, List.take_succ_cons, List.take_zero, List.drop_succ_cons, List.drop_zero]
  after_results_simp
  first | rfl | skip
set_option maxHeartbeats 4000000 in
theorem c_v1 : after chunkC V (Proc.devRef .tc main_v1) = V (Proc.devRef .tc main_v1) := by
  simp only [chunkC, ops, List.take_succ_cons, List.take_zero, List.drop_succ_cons, List.drop_zero]
  after_results_simp
set_option maxHeartbeats 4000000 in
theorem c_v3 : after chunkC V (Proc.devRef .tc main_v3) = V (Proc.devRef .tc main_v3) := by
  simp only [chunkC, ops, List.take_succ_cons, List.take_zero, List.drop_succ_cons, List.drop_zero]
  after_results_simp
set_option maxHeartbeats 4000000 in
theorem c_v49 : after chunkC V (Proc.devRef .tc main_v49) = V (Proc.devRef .tc main_v49) := by
  simp only [chunkC, ops, List.take_succ_cons, List.take_zero, List.drop_succ_cons, List.drop_zero]
  after_results_simp
set_option maxHeartbeats 4000000 in
theorem c_arg5 : after chunkC V (Proc.devRef .tc main_arg5) = V (Proc.devRef .tc main_arg5) := by
  simp only [chunkC, ops, List.take_succ_cons, List.take_zero, List.drop_succ_cons, List.drop_zero]
  after_results_simp

/-! ### Chunk D: layer 2 and the log-softmax -/

set_option maxHeartbeats 4000000 in
theorem d_out : (after chunkD V (Proc.devRef .tc main_v93) : (⟨S100000x40, .f32⟩ : BufTy).Contents (Elt F)) = lsmR (preR (V (Proc.devRef .tc main_v49)) (agg40 (V (Proc.devRef .tc main_v1)) (V (Proc.devRef .tc main_v3)) (V (Proc.devRef .tc main_v71)) (V (Proc.devRef .tc main_v49))) (V (Proc.devRef .tc main_v56)) (V (Proc.devRef .tc main_arg5))) := by
  simp only [chunkD, ops, List.drop_succ_cons, List.drop_zero]
  after_results_simp
  simp only [ofBuf_toBuf]
  rw [ofBuf_v92, toBuf_v93]
  rfl

end Cert.ReferenceIdeal.Chunks

end
-- ==== Proof.RefValue.lean ====
/-
  The array the reference returns, as one function of its six arguments.

  Chaining the four chunks from the launch memory: the last chunk's log-softmax of the second combine
  reads the second product, dinv and the edge weights of the third chunk and the endpoint arrays; those
  are what the earlier chunks left, down to the arguments as launched.
-/
import proofs.«127718_j28063316312557_2_alg».proof.Proof.RefChunks
import Idealize.ShloMosaic.PureOps.Ideal

set_option maxRecDepth 16384

noncomputable section

namespace Cert.ReferenceIdeal.RefValue

open Cert.ReferenceIdeal Cert.ReferenceIdeal.Gen Cert.ReferenceIdeal.Value Cert.ReferenceIdeal.Chunks
open Idealize.ShloMosaic Idealize.ShloMosaic.TcCoe Idealize.SL.Sem Idealize.ShloMosaic.StableHlo
open Cert.KernelIdeal.GraphOps (src dst degInv edgeNorm agg16 agg40)

variable (m : (ℓ : Loc nD τ sig) → Buf (Elt Ideal) ℓ) (c : Dev nD)

/-- The fold of all of @main's operations over the launch memory, at the result buffer. -/
theorem result : after (ops (F := Ideal)) (launchContents m c) (Proc.devRef .tc main_v93)
    = lsmR (preR (layer1R (Host.dotGeneral (F := Ideal) (φ₁ := .f32) (φ₂ := .f32) dot_S100000x128_S128x16_S100000x16_1_0_0_1_n_n none (m ((c : Thread nD τ).loc main_arg0)) (m ((c : Thread nD τ).loc main_arg2))) (agg16 (src (m ((c : Thread nD τ).loc main_arg1))) (dst (m ((c : Thread nD τ).loc main_arg1))) (edgeNorm (src (m ((c : Thread nD τ).loc main_arg1))) (dst (m ((c : Thread nD τ).loc main_arg1)))) (Host.dotGeneral (F := Ideal) (φ₁ := .f32) (φ₂ := .f32) dot_S100000x128_S128x16_S100000x16_1_0_0_1_n_n none (m ((c : Thread nD τ).loc main_arg0)) (m ((c : Thread nD τ).loc main_arg2)))) (degInv (dst (m ((c : Thread nD τ).loc main_arg1)))) (m ((c : Thread nD τ).loc main_arg3)) (m ((c : Thread nD τ).loc main_arg4))) (agg40 (src (m ((c : Thread nD τ).loc main_arg1))) (dst (m ((c : Thread nD τ).loc main_arg1))) (edgeNorm (src (m ((c : Thread nD τ).loc main_arg1))) (dst (m ((c : Thread nD τ).loc main_arg1)))) (layer1R (Host.dotGeneral (F := Ideal) (φ₁ := .f32) (φ₂ := .f32) dot_S100000x128_S128x16_S100000x16_1_0_0_1_n_n none (m ((c : Thread nD τ).loc main_arg0)) (m ((c : Thread nD τ).loc main_arg2))) (agg16 (src (m ((c : Thread nD τ).loc main_arg1))) (dst (m ((c : Thread nD τ).loc main_arg1))) (edgeNorm (src (m ((c : Thread nD τ).loc main_arg1))) (dst (m ((c : Thread nD τ).loc main_arg1)))) (Host.dotGeneral (F := Ideal) (φ₁ := .f32) (φ₂ := .f32) dot_S100000x128_S128x16_S100000x16_1_0_0_1_n_n none (m ((c : Thread nD τ).loc main_arg0)) (m ((c : Thread nD τ).loc main_arg2)))) (degInv (dst (m ((c : Thread nD τ).loc main_arg1)))) (m ((c : Thread nD τ).loc main_arg3)) (m ((c : Thread nD τ).loc main_arg4)))) (degInv (dst (m ((c : Thread nD τ).loc main_arg1)))) (m ((c : Thread nD τ).loc main_arg5))) := by
  rw [ops_split, after_append, after_append, after_append]
  refine (d_out _).trans ?_
  rw [c_v49, c_v1, c_v3, c_norm, c_dinv, c_arg5]
  rw [b_h2, b_v1, b_v3, b_arg5]
  rw [a_h1, a_src, a_dst, a_dinv, a_norm, a_arg3, a_arg4, a_arg5]

end Cert.ReferenceIdeal.RefValue

end
-- ==== Proof.Bridges.lean ====
/-
  The reference's dense and pointwise forms are the kernel's whole-array functions.

  Over the extended reals a host dot_general is, entry by entry, the sum over the contraction index of
  the products of its operands' entries; a broadcast_in_dim reads its operand at the kept coordinates;
  a reshape between [n] and [n, 1] or [1, n] keeps the entry. So the reference's whole product x · W₁ is
  the function the first region's blocks tile, its relu((a + h · dinv²) + b₁) · W₂ is the function the
  second region's blocks tile once dinv² is laid out as a column and b₁ as a row, and its combine of
  layer 2 is the third region's pre-activation. The reference's log-softmax takes each row's maximum as
  max(-∞, fold of max over the row from -∞), which is that fold (a fold of max is at least its starting
  value), and each row's sum of exponentials as 0 + Σ, which is the sum: the third region's function.
-/
import proofs.«127718_j28063316312557_2_alg».proof.Proof.RefChunks
import proofs.«127718_j28063316312557_2_alg».proof.Proof.FeatureProduct
import proofs.«127718_j28063316312557_2_alg».proof.Proof.HiddenLayer
import proofs.«127718_j28063316312557_2_alg».proof.Proof.LogSoftmaxRows
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.SL.Sem
open Cert.KernelIdeal (S100000x128 S128x16 S100000x16 S100000x1 S1x16 S16x40 S100000x40 S1x40 S100000 S16 S40 S_)
open Cert.KernelIdeal.GraphOps (selfCol biasRow16 biasRow40)
open Cert.KernelIdeal.FeatureProduct (xw rowAt colAt)
open Cert.KernelIdeal.HiddenLayer (rk r0 zk kc)
open Cert.ReferenceIdeal.Chunks (layer1R preR rowMaxR lsmR)

/-! ## Layout operations read at an entry -/

/-- Entry r of a [100000] vector. -/
abbrev v1 (r : Fin 100000) : S100000.Idx := fun a => match a with | ⟨0, _⟩ => ⟨r.val, r.isLt⟩
abbrev k16 (k : Fin 16) : S16.Idx := fun a => match a with | ⟨0, _⟩ => ⟨k.val, k.isLt⟩
abbrev k40 (k : Fin 40) : S40.Idx := fun a => match a with | ⟨0, _⟩ => ⟨k.val, k.isLt⟩

/-- A [100000] vector as a column, read at (r, 0). -/
theorem col_cast {α : Type} (x : S100000.Idx → α) (h : S100000.ShapeCasts S100000x1) (p : S100000x1.Idx) (q : S100000.Idx)
    (hq : (q 0).val = (p 0).val) : shapeCast S100000x1 x h p = x q :=
  shapeCast_apply x h p q (by
    rw [Shape.rowMajor_val_two, Shape.rowMajor_val_one]
    show (q 0).val = (p 0).val * 1 + (p 1).val
    have h1 : (p 1).val < 1 := (p 1).isLt
    omega)

/-- A [16] vector as a row, read at (0, k). -/
theorem row_cast16 {α : Type} (x : S16.Idx → α) (h : S16.ShapeCasts S1x16) (p : S1x16.Idx) (q : S16.Idx)
    (hq : (q 0).val = (p 1).val) : shapeCast S1x16 x h p = x q :=
  shapeCast_apply x h p q (by
    rw [Shape.rowMajor_val_two, Shape.rowMajor_val_one]
    show (q 0).val = (p 0).val * 16 + (p 1).val
    have h1 : (p 0).val < 1 := (p 0).isLt
    omega)

/-- A [40] vector as a row, read at (0, k). -/
theorem row_cast40 {α : Type} (x : S40.Idx → α) (h : S40.ShapeCasts S1x40) (p : S1x40.Idx) (q : S40.Idx)
    (hq : (q 0).val = (p 1).val) : shapeCast S1x40 x h p = x q :=
  shapeCast_apply x h p q (by
    rw [Shape.rowMajor_val_two, Shape.rowMajor_val_one]
    show (q 0).val = (p 0).val * 40 + (p 1).val
    have h1 : (p 0).val < 1 := (p 0).isLt
    omega)

/-- The self-loop column at (r, 0): dinv(r)². -/
theorem selfCol_apply (dv : (⟨S100000, .f32⟩ : BufTy).Contents (Elt Ideal)) (p : S100000x1.Idx) :
    selfCol (F := Ideal) dv p = dv (v1 ⟨(p 0).val, (p 0).isLt⟩) * dv (v1 ⟨(p 0).val, (p 0).isLt⟩) := by
  unfold selfCol
  exact col_cast _ _ p (v1 ⟨(p 0).val, (p 0).isLt⟩) rfl

theorem biasRow16_apply (b : (⟨S16, .f32⟩ : BufTy).Contents (Elt Ideal)) (p : S1x16.Idx) :
    biasRow16 (F := Ideal) b p = b (k16 ⟨(p 1).val, (p 1).isLt⟩) := by
  unfold biasRow16
  exact row_cast16 _ _ p (k16 ⟨(p 1).val, (p 1).isLt⟩) rfl

theorem biasRow40_apply (b : (⟨S40, .f32⟩ : BufTy).Contents (Elt Ideal)) (p : S1x40.Idx) :
    biasRow40 (F := Ideal) b p = b (k40 ⟨(p 1).val, (p 1).isLt⟩) := by
  unfold biasRow40
  exact row_cast40 _ _ p (k40 ⟨(p 1).val, (p 1).isLt⟩) rfl

/-- The column entry (p 0, 0) over an entry p. -/
abbrev colq16 (p : S100000x16.Idx) : S100000x1.Idx := fun a => match a with
  | ⟨0, _⟩ => ⟨(p 0).val, (p 0).isLt⟩
  | ⟨1, _⟩ => ⟨0, Nat.one_pos⟩
abbrev colq40 (p : S100000x40.Idx) : S100000x1.Idx := fun a => match a with
  | ⟨0, _⟩ => ⟨(p 0).val, (p 0).isLt⟩
  | ⟨1, _⟩ => ⟨0, Nat.one_pos⟩
/-- The row entry (0, p 1) over an entry p. -/
abbrev rowq16 (p : S100000x16.Idx) : S1x16.Idx := fun a => match a with
  | ⟨0, _⟩ => ⟨0, Nat.one_pos⟩
  | ⟨1, _⟩ => ⟨(p 1).val, (p 1).isLt⟩
abbrev rowq40 (p : S100000x40.Idx) : S1x40.Idx := fun a => match a with
  | ⟨0, _⟩ => ⟨0, Nat.one_pos⟩
  | ⟨1, _⟩ => ⟨(p 1).val, (p 1).isLt⟩

/-- A [100000] vector broadcast as a column and then along the rows of a [100000, 16] array, at an entry. -/
theorem bcol16 {α : Type} (v : S100000.Idx → α) (h1 : S100000.BroadcastsInDim S100000x1 ![0]) (h2 : S100000x1.BroadcastsInDim S100000x16 ![0, 1])
    (p : S100000x16.Idx) : broadcastInDim S100000x16 ![0, 1] h2 (broadcastInDim S100000x1 ![0] h1 v) p = v (v1 ⟨(p 0).val, (p 0).isLt⟩) :=
  (broadcastInDim_apply ![0, 1] h2 _ p (colq16 p) (fun a => by match a with | ⟨0, _⟩ => rfl | ⟨1, _⟩ => rfl)).trans
    (broadcastInDim_apply ![0] h1 v (colq16 p) (v1 ⟨(p 0).val, (p 0).isLt⟩) (fun a => by match a with | ⟨0, _⟩ => rfl))

/-- The same into a [100000, 40] array. -/
theorem bcol40 {α : Type} (v : S100000.Idx → α) (h1 : S100000.BroadcastsInDim S100000x1 ![0]) (h2 : S100000x1.BroadcastsInDim S100000x40 ![0, 1])
    (p : S100000x40.Idx) : broadcastInDim S100000x40 ![0, 1] h2 (broadcastInDim S100000x1 ![0] h1 v) p = v (v1 ⟨(p 0).val, (p 0).isLt⟩) :=
  (broadcastInDim_apply ![0, 1] h2 _ p (colq40 p) (fun a => by match a with | ⟨0, _⟩ => rfl | ⟨1, _⟩ => rfl)).trans
    (broadcastInDim_apply ![0] h1 v (colq40 p) (v1 ⟨(p 0).val, (p 0).isLt⟩) (fun a => by match a with | ⟨0, _⟩ => rfl))

/-- A [16] vector broadcast as a row and then down the columns of a [100000, 16] array, at an entry. -/
theorem brow16 {α : Type} (b : S16.Idx → α) (h1 : S16.BroadcastsInDim S1x16 ![1]) (h2 : S1x16.BroadcastsInDim S100000x16 ![0, 1])
    (p : S100000x16.Idx) : broadcastInDim S100000x16 ![0, 1] h2 (broadcastInDim S1x16 ![1] h1 b) p = b (k16 ⟨(p 1).val, (p 1).isLt⟩) :=
  (broadcastInDim_apply ![0, 1] h2 _ p (rowq16 p) (fun a => by match a with | ⟨0, _⟩ => rfl | ⟨1, _⟩ => rfl)).trans
    (broadcastInDim_apply ![1] h1 b (rowq16 p) (k16 ⟨(p 1).val, (p 1).isLt⟩) (fun a => by match a with | ⟨0, _⟩ => rfl))

/-- A [40] vector broadcast as a row and then down the columns of a [100000, 40] array, at an entry. -/
theorem brow40 {α : Type} (b : S40.Idx → α) (h1 : S40.BroadcastsInDim S1x40 ![1]) (h2 : S1x40.BroadcastsInDim S100000x40 ![0, 1])
    (p : S100000x40.Idx) : broadcastInDim S100000x40 ![0, 1] h2 (broadcastInDim S1x40 ![1] h1 b) p = b (k40 ⟨(p 1).val, (p 1).isLt⟩) :=
  (broadcastInDim_apply ![0, 1] h2 _ p (rowq40 p) (fun a => by match a with | ⟨0, _⟩ => rfl | ⟨1, _⟩ => rfl)).trans
    (broadcastInDim_apply ![1] h1 b (rowq40 p) (k40 ⟨(p 1).val, (p 1).isLt⟩) (fun a => by match a with | ⟨0, _⟩ => rfl))

/-- A scalar broadcast over an array, at an entry. -/
theorem bscalar {α : Type} {t : Shape} (x : S_.Idx → α) (h : S_.BroadcastsInDim t ![]) (p : t.Idx) (q : S_.Idx) :
    broadcastInDim t ![] h x p = x q :=
  broadcastInDim_apply ![] h x p q (fun a => a.elim0)

/-! ## The first product -/

theorem lhs1_0 (i : S100000x16.Idx) (q : Cert.ReferenceIdeal.dot_S100000x128_S128x16_S100000x16_1_0_0_1_n_n.contr.Idx) : (Cert.ReferenceIdeal.dot_S100000x128_S128x16_S100000x16_1_0_0_1_n_n.lhsIdx i q 0).val = (i 0).val := by
  unfold DotDims.lhsIdx
  rw [dif_neg (show ¬(0 : Fin S100000x128.rank) ∈ Cert.ReferenceIdeal.dot_S100000x128_S128x16_S100000x16_1_0_0_1_n_n.lhsBatch by decide), dif_pos (show (0 : Fin S100000x128.rank) ∈ Cert.ReferenceIdeal.dot_S100000x128_S128x16_S100000x16_1_0_0_1_n_n.lhsNonContracting by decide)]
  rfl
theorem lhs1_1 (i : S100000x16.Idx) (q : Cert.ReferenceIdeal.dot_S100000x128_S128x16_S100000x16_1_0_0_1_n_n.contr.Idx) : (Cert.ReferenceIdeal.dot_S100000x128_S128x16_S100000x16_1_0_0_1_n_n.lhsIdx i q 1).val = (q ⟨0, by decide⟩).val :=
  Cert.ReferenceIdeal.dot_S100000x128_S128x16_S100000x16_1_0_0_1_n_n.lhsIdx_val_of_single rfl i q
theorem rhs1_0 (i : S100000x16.Idx) (q : Cert.ReferenceIdeal.dot_S100000x128_S128x16_S100000x16_1_0_0_1_n_n.contr.Idx) : (Cert.ReferenceIdeal.dot_S100000x128_S128x16_S100000x16_1_0_0_1_n_n.rhsIdx i q 0).val = (q ⟨0, by decide⟩).val :=
  Cert.ReferenceIdeal.dot_S100000x128_S128x16_S100000x16_1_0_0_1_n_n.rhsIdx_val_of_single rfl i q
theorem rhs1_1 (i : S100000x16.Idx) (q : Cert.ReferenceIdeal.dot_S100000x128_S128x16_S100000x16_1_0_0_1_n_n.contr.Idx) : (Cert.ReferenceIdeal.dot_S100000x128_S128x16_S100000x16_1_0_0_1_n_n.rhsIdx i q 1).val = (i 1).val := by
  unfold DotDims.rhsIdx
  rw [dif_neg (show ¬(1 : Fin S128x16.rank) ∈ Cert.ReferenceIdeal.dot_S100000x128_S128x16_S100000x16_1_0_0_1_n_n.rhsBatch by decide), dif_pos (show (1 : Fin S128x16.rank) ∈ Cert.ReferenceIdeal.dot_S100000x128_S128x16_S100000x16_1_0_0_1_n_n.rhsNonContracting by decide)]
  rfl

/-- The reference's whole product x · W₁ is the function the first region's blocks tile. -/
theorem product1 (x : (⟨S100000x128, .f32⟩ : BufTy).Contents (Elt Ideal)) (w : (⟨S128x16, .f32⟩ : BufTy).Contents (Elt Ideal)) :
    Host.dotGeneral (F := Ideal) (φ₁ := .f32) (φ₂ := .f32) Cert.ReferenceIdeal.dot_S100000x128_S128x16_S100000x16_1_0_0_1_n_n none x w = xw x w := by
  funext i
  unfold xw
  simp only [Host.dotGeneral]
  refine (Ideal.dotGeneral_apply Cert.ReferenceIdeal.dot_S100000x128_S128x16_S100000x16_1_0_0_1_n_n none _ x w i).trans ?_
  rw [← Equiv.sum_comp (ValueIdx.contrEquiv1 Cert.ReferenceIdeal.dot_S100000x128_S128x16_S100000x16_1_0_0_1_n_n 128 rfl rfl).symm]
  refine Finset.sum_congr rfl fun k _ => ?_
  have hk := ValueIdx.contrEquiv1_symm_val Cert.ReferenceIdeal.dot_S100000x128_S128x16_S100000x16_1_0_0_1_n_n 128 rfl rfl k
  have el : Cert.ReferenceIdeal.dot_S100000x128_S128x16_S100000x16_1_0_0_1_n_n.lhsIdx i ((ValueIdx.contrEquiv1 Cert.ReferenceIdeal.dot_S100000x128_S128x16_S100000x16_1_0_0_1_n_n 128 rfl rfl).symm k) = rowAt i k := funext fun a => Fin.ext (by
    match a with
    | ⟨0, _⟩ => exact lhs1_0 _ _
    | ⟨1, _⟩ => exact (lhs1_1 _ _).trans hk)
  have er : Cert.ReferenceIdeal.dot_S100000x128_S128x16_S100000x16_1_0_0_1_n_n.rhsIdx i ((ValueIdx.contrEquiv1 Cert.ReferenceIdeal.dot_S100000x128_S128x16_S100000x16_1_0_0_1_n_n 128 rfl rfl).symm k) = colAt i k := funext fun a => Fin.ext (by
    match a with
    | ⟨0, _⟩ => exact (rhs1_0 _ _).trans hk
    | ⟨1, _⟩ => exact rhs1_1 _ _)
  rw [el, er]

/-! ## Layer 1 after the aggregate -/

theorem lhs2_0 (i : S100000x40.Idx) (q : Cert.ReferenceIdeal.dot_S100000x16_S16x40_S100000x40_1_0_0_1_n_n.contr.Idx) : (Cert.ReferenceIdeal.dot_S100000x16_S16x40_S100000x40_1_0_0_1_n_n.lhsIdx i q 0).val = (i 0).val := by
  unfold DotDims.lhsIdx
  rw [dif_neg (show ¬(0 : Fin S100000x16.rank) ∈ Cert.ReferenceIdeal.dot_S100000x16_S16x40_S100000x40_1_0_0_1_n_n.lhsBatch by decide), dif_pos (show (0 : Fin S100000x16.rank) ∈ Cert.ReferenceIdeal.dot_S100000x16_S16x40_S100000x40_1_0_0_1_n_n.lhsNonContracting by decide)]
  rfl
theorem lhs2_1 (i : S100000x40.Idx) (q : Cert.ReferenceIdeal.dot_S100000x16_S16x40_S100000x40_1_0_0_1_n_n.contr.Idx) : (Cert.ReferenceIdeal.dot_S100000x16_S16x40_S100000x40_1_0_0_1_n_n.lhsIdx i q 1).val = (q ⟨0, by decide⟩).val :=
  Cert.ReferenceIdeal.dot_S100000x16_S16x40_S100000x40_1_0_0_1_n_n.lhsIdx_val_of_single rfl i q
theorem rhs2_0 (i : S100000x40.Idx) (q : Cert.ReferenceIdeal.dot_S100000x16_S16x40_S100000x40_1_0_0_1_n_n.contr.Idx) : (Cert.ReferenceIdeal.dot_S100000x16_S16x40_S100000x40_1_0_0_1_n_n.rhsIdx i q 0).val = (q ⟨0, by decide⟩).val :=
  Cert.ReferenceIdeal.dot_S100000x16_S16x40_S100000x40_1_0_0_1_n_n.rhsIdx_val_of_single rfl i q
theorem rhs2_1 (i : S100000x40.Idx) (q : Cert.ReferenceIdeal.dot_S100000x16_S16x40_S100000x40_1_0_0_1_n_n.contr.Idx) : (Cert.ReferenceIdeal.dot_S100000x16_S16x40_S100000x40_1_0_0_1_n_n.rhsIdx i q 1).val = (i 1).val := by
  unfold DotDims.rhsIdx
  rw [dif_neg (show ¬(1 : Fin S16x40.rank) ∈ Cert.ReferenceIdeal.dot_S100000x16_S16x40_S100000x40_1_0_0_1_n_n.rhsBatch by decide), dif_pos (show (1 : Fin S16x40.rank) ∈ Cert.ReferenceIdeal.dot_S100000x16_S16x40_S100000x40_1_0_0_1_n_n.rhsNonContracting by decide)]
  rfl

/-- The reference's relu((a + h · dinv²) + b₁) · W₂ is the function the second region's blocks tile. -/
theorem layer1 (h a : (⟨S100000x16, .f32⟩ : BufTy).Contents (Elt Ideal)) (dv : (⟨S100000, .f32⟩ : BufTy).Contents (Elt Ideal))
    (b : (⟨S16, .f32⟩ : BufTy).Contents (Elt Ideal)) (W : (⟨S16x40, .f32⟩ : BufTy).Contents (Elt Ideal)) :
    layer1R (F := Ideal) h a dv b W = Cert.KernelIdeal.HiddenLayer.hidden h a (selfCol dv) (biasRow16 b) W := by
  funext i
  unfold layer1R Cert.KernelIdeal.HiddenLayer.hidden
  simp only [Host.dotGeneral]
  refine (Ideal.dotGeneral_apply Cert.ReferenceIdeal.dot_S100000x16_S16x40_S100000x40_1_0_0_1_n_n none _ _ W i).trans ?_
  rw [← Equiv.sum_comp (ValueIdx.contrEquiv1 Cert.ReferenceIdeal.dot_S100000x16_S16x40_S100000x40_1_0_0_1_n_n 16 rfl rfl).symm]
  refine Finset.sum_congr rfl fun k _ => ?_
  have hk := ValueIdx.contrEquiv1_symm_val Cert.ReferenceIdeal.dot_S100000x16_S16x40_S100000x40_1_0_0_1_n_n 16 rfl rfl k
  have el : Cert.ReferenceIdeal.dot_S100000x16_S16x40_S100000x40_1_0_0_1_n_n.lhsIdx i ((ValueIdx.contrEquiv1 Cert.ReferenceIdeal.dot_S100000x16_S16x40_S100000x40_1_0_0_1_n_n 16 rfl rfl).symm k) = rk i k := funext fun a => Fin.ext (by
    match a with
    | ⟨0, _⟩ => exact lhs2_0 _ _
    | ⟨1, _⟩ => exact (lhs2_1 _ _).trans hk)
  have er : Cert.ReferenceIdeal.dot_S100000x16_S16x40_S100000x40_1_0_0_1_n_n.rhsIdx i ((ValueIdx.contrEquiv1 Cert.ReferenceIdeal.dot_S100000x16_S16x40_S100000x40_1_0_0_1_n_n 16 rfl rfl).symm k) = kc i k := funext fun a => Fin.ext (by
    match a with
    | ⟨0, _⟩ => exact (rhs2_0 _ _).trans hk
    | ⟨1, _⟩ => exact rhs2_1 _ _)
  rw [el, er]
  simp only [ValueIdx.maximumf_apply, ValueIdx.addf_apply, ValueIdx.mulf_apply]
  rw [bcol16 _ _ _ (rk i k), brow16 _ _ _ (rk i k), bscalar _ _ (rk i k) (fun a => a.elim0), selfCol_apply, biasRow16_apply]
  rfl

/-! ## Layer 2's combine and the log-softmax -/

/-- One step: a [100000, 1] column broadcast along the rows of a [100000, 40] array, at an entry. -/
theorem bc_col40 {α : Type} (X : S100000x1.Idx → α) (h2 : S100000x1.BroadcastsInDim S100000x40 ![0, 1]) (p : S100000x40.Idx) :
    broadcastInDim S100000x40 ![0, 1] h2 X p = X (Cert.KernelIdeal.LogSoftmaxRows.r0 p) :=
  broadcastInDim_apply ![0, 1] h2 X p (Cert.KernelIdeal.LogSoftmaxRows.r0 p) (fun a => by match a with | ⟨0, _⟩ => rfl | ⟨1, _⟩ => rfl)

/-- One step: a [100000] vector as a column, at (r, 0). -/
theorem bc_vec {α : Type} (v : S100000.Idx → α) (h1 : S100000.BroadcastsInDim S100000x1 ![0]) (q : S100000x1.Idx) :
    broadcastInDim S100000x1 ![0] h1 v q = v (v1 ⟨(q 0).val, (q 0).isLt⟩) :=
  broadcastInDim_apply ![0] h1 v q (v1 ⟨(q 0).val, (q 0).isLt⟩) (fun a => by match a with | ⟨0, _⟩ => rfl)

theorem hlog_apply {s : Shape} (v : FVec Ideal s .f32) (q : s.Idx) : Host.log (F := Ideal) v q = Ideal.log (v q) := rfl
theorem hexp_apply {s : Shape} (v : FVec Ideal s .f32) (q : s.Idx) : Host.exp (F := Ideal) v q = Ideal.exp (v q) := rfl

/-- The reference's combine of layer 2 is the third region's pre-activation. -/
theorem pre_eq (h a : (⟨S100000x40, .f32⟩ : BufTy).Contents (Elt Ideal)) (dv : (⟨S100000, .f32⟩ : BufTy).Contents (Elt Ideal))
    (b : (⟨S40, .f32⟩ : BufTy).Contents (Elt Ideal)) :
    preR (F := Ideal) h a dv b = Cert.KernelIdeal.LogSoftmaxRows.pre h a (selfCol dv) (biasRow40 b) := by
  funext p
  unfold preR Cert.KernelIdeal.LogSoftmaxRows.pre
  simp only [ValueIdx.addf_apply, ValueIdx.mulf_apply]
  rw [bcol40 _ _ _ p, brow40 _ _ _ p, selfCol_apply, biasRow40_apply]
  rfl

/-- The host's max-reduce of a row from -∞: the fold of max over the row's 40 entries. -/
theorem hostMax_apply (z : (⟨S100000x40, .f32⟩ : BufTy).Contents (Elt Ideal)) (h' : S100000x40.ReducesTo [1] S100000) (hu : 0 < S_.numel)
    (r : Fin 100000) :
    Host.reduce (FloatOps.maximumf (F := Ideal) (φ := .f32)) z (constant (F := Ideal) S_ .f32 0xFF800000#32) h' hu (v1 r) = Cert.KernelIdeal.LogSoftmaxRows.rmax z r := by
  refine (Host.reduce_eq_fold_single (FloatOps.maximumf (F := Ideal) (φ := .f32)) z _ h' (by decide) hu (v1 r)).trans ?_
  unfold Cert.KernelIdeal.LogSoftmaxRows.rmax
  exact congrArg (fun g => Finset.fold max (Ideal.ofBits .f32 0xFF800000#32) g Finset.univ)
    (funext fun k => congrArg z (funext fun a => Fin.ext (by match a with | ⟨0, _⟩ => rfl | ⟨1, _⟩ => rfl)))

/-- The host's sum-reduce of a row from zero: the sum of the row's 40 entries. -/
theorem hostSum_apply (y : (⟨S100000x40, .f32⟩ : BufTy).Contents (Elt Ideal)) (h' : S100000x40.ReducesTo [1] S100000) (hu : 0 < S_.numel)
    (r : Fin 100000) :
    Host.reduceAdd (F := Ideal) y (constant (F := Ideal) S_ .f32 0x00000000#32) h' hu (v1 r) = ∑ k : Fin 40, y (Cert.KernelIdeal.LogSoftmaxRows.ix r k) := by
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The reference's row maxima, broadcast back: max(-∞, fold) is the fold. -/
theorem rowMax_apply (z : (⟨S100000x40, .f32⟩ : BufTy).Contents (Elt Ideal)) (p : S100000x40.Idx) :
    rowMaxR (F := Ideal) z p = Cert.KernelIdeal.LogSoftmaxRows.rmax z ⟨(p 0).val, (p 0).isLt⟩ := by
  unfold rowMaxR
  rw [bcol40 _ _ _ p, ValueIdx.maximumf_apply, bscalar _ _ _ (fun a => a.elim0), hostMax_apply]
  refine max_eq_right ?_
  unfold Cert.KernelIdeal.LogSoftmaxRows.rmax
  exact (Finset.le_fold_max _).2 (Or.inl le_rfl)

/-- The reference's log-softmax is the third region's. -/
theorem lsm_eq (z : (⟨S100000x40, .f32⟩ : BufTy).Contents (Elt Ideal)) : lsmR (F := Ideal) z = Cert.KernelIdeal.LogSoftmaxRows.lsm z := by
  funext i
  unfold lsmR Cert.KernelIdeal.LogSoftmaxRows.lsm
  rw [ValueIdx.subf_apply, ValueIdx.subf_apply, rowMax_apply, bc_col40, hlog_apply, bc_vec, hostSum_apply]
  simp only [hexp_apply, ValueIdx.subf_apply, rowMax_apply]

/-- The reference's layer 2 is the function the third region's blocks tile. -/
theorem layer2 (h a : (⟨S100000x40, .f32⟩ : BufTy).Contents (Elt Ideal)) (dv : (⟨S100000, .f32⟩ : BufTy).Contents (Elt Ideal))
    (b : (⟨S40, .f32⟩ : BufTy).Contents (Elt Ideal)) :
    lsmR (F := Ideal) (preR (F := Ideal) h a dv b) = Cert.KernelIdeal.LogSoftmaxRows.logits h a (selfCol dv) (biasRow40 b) := by
  rw [lsm_eq, pre_eq]
  rfl

end Cert.Bridge

end
-- ==== Proof.lean ====
/-
  Two graph-convolution layers and a row-wise log-softmax: the three tiled kernels against the whole-array reference.

  Both programs compute, from node features x, an edge list, and the weights and biases of two layers,
      log_softmax( Â · relu(Â · (x W₁) + b₁) · W₂ + b₂ ),   Â = D^(-1/2) (A + I) D^(-1/2),
  where a layer's Â · h is the sum over incoming edges of h(src) · dinv(src) · dinv(dst) plus the
  self-loop term h · dinv². Everything that reads the edge list runs on the host in both programs with
  the same operations. The kernel program runs the dense parts in three regions of 20 row blocks of 5000
  rows each (x · W₁; the combine, relu and product with W₂; the combine and log-softmax); the reference
  runs them as whole-array host operations. Over the extended reals the regions' blocks tile one
  whole-array function each, and those three functions are the reference's dense forms: a matrix product
  in row blocks is the whole product restricted to the rows, rounding to bf16 is the identity, the
  kernel's lane maximum and lane sum are the host's row reductions, and max(-∞, M) = M. No law used here
  needs a finite input, so the precondition is never opened.

  The frames of the two kernel programs are the generated ones; the reference's is its run with the
  result dropped; the ideal pass rewrote nothing.
-/
import proofs.«127718_j28063316312557_2_alg».proof.Defs
import proofs.«127718_j28063316312557_2_alg».proof.Proof.Gen.Kernel
import proofs.«127718_j28063316312557_2_alg».proof.Proof.Gen.Kernel.Skeleton
import proofs.«127718_j28063316312557_2_alg».proof.Proof.Gen.Kernel.Launch
import proofs.«127718_j28063316312557_2_alg».proof.Proof.Gen.Kernel.Points
import proofs.«127718_j28063316312557_2_alg».proof.Proof.Gen.Kernel.Frame
import proofs.«127718_j28063316312557_2_alg».proof.Proof.Gen.KernelIdeal
import proofs.«127718_j28063316312557_2_alg».proof.Proof.Gen.KernelIdeal.Skeleton
import proofs.«127718_j28063316312557_2_alg».proof.Proof.Gen.KernelIdeal.Launch
import proofs.«127718_j28063316312557_2_alg».proof.Proof.Gen.KernelIdeal.Points
import proofs.«127718_j28063316312557_2_alg».proof.Proof.Gen.KernelIdeal.Frame
import proofs.«127718_j28063316312557_2_alg».proof.Proof.Gen.ReferenceIdeal
import proofs.«127718_j28063316312557_2_alg».proof.Proof.Gen.Pre_finite_inputs
import proofs.«127718_j28063316312557_2_alg».proof.Proof.RefRun
import proofs.«127718_j28063316312557_2_alg».proof.Proof.KernelValue
import proofs.«127718_j28063316312557_2_alg».proof.Proof.RefValue
import proofs.«127718_j28063316312557_2_alg».proof.Proof.Bridges
import Idealize.ShloMosaic.Adequacy
import Idealize.ShloMosaic.Init

set_option maxRecDepth 16384

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the same array: the kernel
    program's third region leaves the log-softmax function of what the earlier regions and stretches
    left, the reference's last chunk the reference's log-softmax of its own earlier stages, and stage by
    stage these are the same functions of the same arguments. -/
theorem algebraic : Cert.algebraic_KernelIdeal_ReferenceIdeal := by
  intro m ρ m' ρ' _ hagree
  refine ⟨fun c => Cert.KernelIdeal.Gen.W6 m ρ c (Proc.devRef .tc Cert.KernelIdeal.main_v58),
    Cert.KernelIdeal.ResultRun.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W6 m ρ c (Proc.devRef .tc Cert.KernelIdeal.main_v58)
  rw [Cert.ReferenceIdeal.RefValue.result m' c, Cert.KernelIdeal.KernelValue.result m ρ c]
  rw [(hagree c).1, (hagree c).2.1, (hagree c).2.2.1, (hagree c).2.2.2.1, (hagree c).2.2.2.2.1, (hagree c).2.2.2.2.2]
  rw [Cert.Bridge.product1, Cert.Bridge.layer1, Cert.Bridge.layer2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
